-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x100000x1 : Shape := ⟨4, ![1, 32, 100000, 1]⟩
abbrev S2x1600000 : Shape := ⟨2, ![2, 1600000]⟩
abbrev S32x64 : Shape := ⟨2, ![32, 64]⟩
abbrev S32 : Shape := ⟨1, ![32]⟩
abbrev S_ : Shape := ⟨0, ![]⟩

class Facts : Prop where
  bcast_S_S1x32x100000x1 : S_.BroadcastsInDim S1x32x100000x1 (![] : Fin 0 → Fin S1x32x100000x1.rank)
  reducesTo_S1x32x100000x1_S_d0_1_2_3 : S1x32x100000x1.ReducesTo [0, 1, 2, 3] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S1x32x100000x1 .f32) (main_arg1 : IVec S2x1600000 32) (main_arg2 : FVec F S32x64 .f32) (main_arg3 : FVec F S32 .f32) (main_arg4 : FVec F S32 .f32) : IVec S_ 1 :=
  let main_v0 : FVec F S1x32x100000x1 .f32 := Host.absf main_arg0
  let main_cst : FVec F S_ .f32 := constant S_ .f32 0x7F800000#32
  let main_v1 : FVec F S1x32x100000x1 .f32 := broadcastInDim S1x32x100000x1 ![] bcast_S_S1x32x100000x1 main_cst
  let main_v2 : IVec S1x32x100000x1 1 := cmpf .olt main_v0 main_v1
  let main_c : IVec S_ 1 := constantI S_ 1 1#1
  let main_v3 : IVec S_ 1 := (fun x v => Host.reduce IntOp.andi x v reducesTo_S1x32x100000x1_S_d0_1_2_3 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S1x32x100000x1 : Shape := ⟨4, ![1, 32, 100000, 1]⟩
abbrev S2x1600000 : Shape := ⟨2, ![2, 1600000]⟩
abbrev S32x64 : Shape := ⟨2, ![32, 64]⟩
abbrev S32 : Shape := ⟨1, ![32]⟩
abbrev S1x32x100000 : Shape := ⟨3, ![1, 32, 100000]⟩
abbrev S100000x32 : Shape := ⟨2, ![100000, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S64x32 : Shape := ⟨2, ![64, 32]⟩
abbrev S1x32 : Shape := ⟨2, ![1, 32]⟩
abbrev S16000x32 : Shape := ⟨2, ![16000, 32]⟩
abbrev S16000x64 : Shape := ⟨2, ![16000, 64]⟩

abbrev nBuf : Space → Nat
  | .hbm => 67
  | .vmem => 15
  | .smem => 0
  | _ => 0

abbrev bufTy : (tb : Table) → Fin (tcTables nBuf tb) → BufTy
  | .hbm, ⟨0, _⟩ => ⟨S1x32x100000x1, .f32⟩
  | .hbm, ⟨1, _⟩ => ⟨S2x1600000, .i32⟩
  | .hbm, ⟨2, _⟩ => ⟨S32x64, .f32⟩
  | .hbm, ⟨3, _⟩ => ⟨S32, .f32⟩
  | .hbm, ⟨4, _⟩ => ⟨S32, .f32⟩
  | .hbm, ⟨5, _⟩ => ⟨S1x32x100000, .f32⟩
  | .hbm, ⟨6, _⟩ => ⟨S100000x32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x32, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x32, .f32⟩
  | .hbm, ⟨29, _⟩ => ⟨S64x32, .f32⟩
  | .hbm, ⟨30, _⟩ => ⟨S1600000x32, .f32⟩
  | .hbm, ⟨31, _⟩ => ⟨S1x32, .f32⟩
  | .hbm, ⟨32, _⟩ => ⟨S1x32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S32, .f32⟩
  | .hbm, ⟨48, _⟩ => ⟨S1x32, .f32⟩
  | .hbm, ⟨49, _⟩ => ⟨S32, .f32⟩
  | .hbm, ⟨50, _⟩ => ⟨S32, .f32⟩
  | .hbm, ⟨51, _⟩ => ⟨S32, .f32⟩
  | .hbm, ⟨52, _⟩ => ⟨S1x32, .f32⟩
  | .hbm, ⟨53, _⟩ => ⟨S1600000x32, .f32⟩
  | .hbm, ⟨54, _⟩ => ⟨S_, .f32⟩
  | .hbm, ⟨55, _⟩ => ⟨S100000x32, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S100000x32, .f32⟩
  | .hbm, ⟨65, _⟩ => ⟨S1x32x100000, .f32⟩
  | .hbm, ⟨66, _⟩ => ⟨S1x32x100000x1, .f32⟩
  | .local _ .vmem, ⟨0, _⟩ => ⟨S16000x32, .f32⟩
  | .local _ .vmem, ⟨1, _⟩ => ⟨S16000x32, .f32⟩
  | .local _ .vmem, ⟨2, _⟩ => ⟨S16000x32, .f32⟩
  | .local _ .vmem, ⟨3, _⟩ => ⟨S16000x32, .f32⟩
  | .local _ .vmem, ⟨4, _⟩ => ⟨S64x32, .f32⟩
  | .local _ .vmem, ⟨5, _⟩ => ⟨S16000x32, .f32⟩
  | .local _ .vmem, ⟨6, _⟩ => ⟨S16000x32, .f32⟩
  | .local _ .vmem, ⟨7, _⟩ => ⟨S1x32, .f32⟩
  | .local _ .vmem, ⟨8, _⟩ => ⟨S1x32, .f32⟩
  | .local _ .vmem, ⟨9, _⟩ => ⟨S16000x32, .f32⟩
  | .local _ .vmem, ⟨10, _⟩ => ⟨S16000x32, .f32⟩
  | .local _ .vmem, ⟨11, _⟩ => ⟨S1x32, .f32⟩
  | .local _ .vmem, ⟨12, _⟩ => ⟨S1x32, .f32⟩
  | .local _ .vmem, ⟨13, _⟩ => ⟨S16000x32, .f32⟩
  | .local _ .vmem, ⟨14, _⟩ => ⟨S16000x32, .f32⟩
  | _, _ => ⟨S1x32x100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_c_6 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x32x100000x1_S1x32x100000 : S1x32x100000x1.ShapeCasts S1x32x100000
  shapeCasts_S1x32x100000_S100000x32 : S1x32x100000.ShapeCasts S100000x32
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S32x64_S64x32_1_0 : S32x64.Transposes [1, 0] S64x32
  inb_S1x32_S1x32_0_0 : ∀ a, (![0, 0] : Fin 2 → Nat) a + S1x32.size a ≤ S1x32.size a
  h_S1x32 : 0 < S1x32.numel
  inb_S16000x32_S16000x32_0_0 : ∀ a, (![0, 0] : Fin 2 → Nat) a + S16000x32.size a ≤ S16000x32.size a
  h_S16000x32 : 0 < S16000x32.numel
  shapeCasts_S16000x32_S16000x32 : S16000x32.ShapeCasts S16000x32
  concatenates_S16000x32_S16000x32_S16000x64_d1 : Shape.Concatenates [S16000x32, S16000x32] S16000x64 1
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  shapeCasts_S1x32_S1x32 : S1x32.ShapeCasts S1x32
  reduces_S16000x32_S32 : S16000x32.Reduces [0] S32
  shapeCasts_S32_S1x32 : S32.ShapeCasts S1x32
  shapeCasts_S1x32_S32 : S1x32.ShapeCasts S32
  bcast_S_S32 : S_.BroadcastsInDim S32 (![] : Fin 0 → Fin S32.rank)
  broadcasts_S1x32_S16000x32 : S1x32.Broadcasts S16000x32
  bcast_S_S100000x32 : S_.BroadcastsInDim S100000x32 (![] : Fin 0 → Fin S100000x32.rank)
  shapeCasts_S100000x32_S1x32x100000 : S100000x32.ShapeCasts S1x32x100000
  bcast_S1x32x100000_S1x32x100000x1_0_1_2 : S1x32x100000.BroadcastsInDim S1x32x100000x1 (![0, 1, 2] : Fin 3 → Fin S1x32x100000x1.rank)
  gather_S100000x32_S1600000x1_S1600000x32_1_0_n_n_0_1_132_wf : GatherDims.WF S100000x32 S1600000x1 S1600000x32 [1] [0] [] [0] [] 1 ![1, 32]
  dot_S16000x64_S64x32_S16000x32_1_0_0_1_n_n_wf : DotDims.WF S16000x64 S64x32 S16000x32 [1] [0] [0] [1] [] []
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x32.size a ≤ S1600000x32.size a
  hwx0_0 : ∀ i : grid0.Coords, EltTy.bits .f32 = 32 ∨ (Rect.block (s := S1600000x32) S16000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S1600000x32.size a
  hwx0_1 : ∀ i : grid0.Coords, EltTy.bits .f32 = 32 ∨ (Rect.block (s := S1600000x32) S16000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x32.size a ≤ S1600000x32.size a
  hwx0_3 : ∀ i : grid0.Coords, EltTy.bits .f32 = 32 ∨ (Rect.block (s := S1600000x32) S16000x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x32.size a ≤ S1600000x32.size a
  hwx1_0 : ∀ i : grid1.Coords, EltTy.bits .f32 = 32 ∨ (Rect.block (s := S1600000x32) S16000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x32.size a ≤ S1600000x32.size a
  hwx1_3 : ∀ i : grid1.Coords, EltTy.bits .f32 = 32 ∨ (Rect.block (s := S1600000x32) S16000x32.size (cc1_transform_3 i) (hinb1_3 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S16000x64_S64x32_S16000x32_1_0_0_1_n_n : DotDims S16000x64 S64x32 S16000x32 where
  lhsContracting := [1]
  rhsContracting := [0]
  lhsNonContracting := [0]
  rhsNonContracting := [1]
  lhsBatch := []
  rhsBatch := []
  wf := dot_S16000x64_S64x32_S16000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v12) S16000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S16000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S1x32.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_2) S1x32.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21_0) S16000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S16000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x32x100000x1 : Shape := ⟨4, ![1, 32, 100000, 1]⟩
abbrev S2x1600000 : Shape := ⟨2, ![2, 1600000]⟩
abbrev S32x64 : Shape := ⟨2, ![32, 64]⟩
abbrev S32 : Shape := ⟨1, ![32]⟩
abbrev S1x32x100000 : Shape := ⟨3, ![1, 32, 100000]⟩
abbrev S100000x32 : Shape := ⟨2, ![100000, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1600000x64 : Shape := ⟨2, ![1600000, 64]⟩
abbrev S64x32 : Shape := ⟨2, ![64, 32]⟩
abbrev S1x32 : Shape := ⟨2, ![1, 32]⟩

abbrev nBuf : Space → Nat
  | .hbm => 81
  | .vmem => 0
  | .smem => 0
  | _ => 0

abbrev bufTy : (tb : Table) → Fin (tcTables nBuf tb) → BufTy
  | .hbm, ⟨0, _⟩ => ⟨S1x32x100000x1, .f32⟩
  | .hbm, ⟨1, _⟩ => ⟨S2x1600000, .i32⟩
  | .hbm, ⟨2, _⟩ => ⟨S32x64, .f32⟩
  | .hbm, ⟨3, _⟩ => ⟨S32, .f32⟩
  | .hbm, ⟨4, _⟩ => ⟨S32, .f32⟩
  | .hbm, ⟨5, _⟩ => ⟨S1x32x100000, .f32⟩
  | .hbm, ⟨6, _⟩ => ⟨S100000x32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x32, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x32, .f32⟩
  | .hbm, ⟨29, _⟩ => ⟨S1600000x32, .f32⟩
  | .hbm, ⟨30, _⟩ => ⟨S1600000x64, .f32⟩
  | .hbm, ⟨31, _⟩ => ⟨S64x32, .f32⟩
  | .hbm, ⟨32, _⟩ => ⟨S1600000x32, .f32⟩
  | .hbm, ⟨33, _⟩ => ⟨S_, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S1x32, .f32⟩
  | .hbm, ⟨39, _⟩ => ⟨S1600000x32, .f32⟩
  | .hbm, ⟨40, _⟩ => ⟨S1600000x32, .f32⟩
  | .hbm, ⟨41, _⟩ => ⟨S1600000x32, .f32⟩
  | .hbm, ⟨42, _⟩ => ⟨S_, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S1x32, .f32⟩
  | .hbm, ⟨48, _⟩ => ⟨S1600000x32, .f32⟩
  | .hbm, ⟨49, _⟩ => ⟨S1600000x32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32, .f32⟩
  | .hbm, ⟨54, _⟩ => ⟨S1x32, .f32⟩
  | .hbm, ⟨55, _⟩ => ⟨S1600000x32, .f32⟩
  | .hbm, ⟨56, _⟩ => ⟨S1600000x32, .f32⟩
  | .hbm, ⟨57, _⟩ => ⟨S1x32, .f32⟩
  | .hbm, ⟨58, _⟩ => ⟨S1600000x32, .f32⟩
  | .hbm, ⟨59, _⟩ => ⟨S1600000x32, .f32⟩
  | .hbm, ⟨60, _⟩ => ⟨S1x32, .f32⟩
  | .hbm, ⟨61, _⟩ => ⟨S1600000x32, .f32⟩
  | .hbm, ⟨62, _⟩ => ⟨S1600000x32, .f32⟩
  | .hbm, ⟨63, _⟩ => ⟨S_, .f32⟩
  | .hbm, ⟨64, _⟩ => ⟨S1600000x32, .f32⟩
  | .hbm, ⟨65, _⟩ => ⟨S1600000x32, .i1⟩
  | .hbm, ⟨66, _⟩ => ⟨S1600000x32, .f32⟩
  | .hbm, ⟨67, _⟩ => ⟨S1600000x32, .f32⟩
  | .hbm, ⟨68, _⟩ => ⟨S_, .f32⟩
  | .hbm, ⟨69, _⟩ => ⟨S100000x32, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S100000x32, .f32⟩
  | .hbm, ⟨79, _⟩ => ⟨S1x32x100000, .f32⟩
  | .hbm, ⟨80, _⟩ => ⟨S1x32x100000x1, .f32⟩
  | _, _ => ⟨S1x32x100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_c_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]

class Facts₀ : Prop where
  shapeCasts_S1x32x100000x1_S1x32x100000 : S1x32x100000x1.ShapeCasts S1x32x100000
  shapeCasts_S1x32x100000_S100000x32 : S1x32x100000.ShapeCasts S100000x32
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x64_d1 : Shape.Concatenates [S1600000x32, S1600000x32] S1600000x64 1
  transposes_S32x64_S64x32_1_0 : S32x64.Transposes [1, 0] S64x32
  reducesTo_S1600000x32_S32_d0 : S1600000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  shapeCasts_S100000x32_S1x32x100000 : S100000x32.ShapeCasts S1x32x100000
  bcast_S1x32x100000_S1x32x100000x1_0_1_2 : S1x32x100000.BroadcastsInDim S1x32x100000x1 (![0, 1, 2] : Fin 3 → Fin S1x32x100000x1.rank)
  gather_S100000x32_S1600000x1_S1600000x32_1_0_n_n_0_1_132_wf : GatherDims.WF S100000x32 S1600000x1 S1600000x32 [1] [0] [] [0] [] 1 ![1, 32]
  dot_S1600000x64_S64x32_S1600000x32_1_0_0_1_n_n_wf : DotDims.WF S1600000x64 S64x32 S1600000x32 [1] [0] [0] [1] [] []
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel's whole run, with its result named.

  The program is five stretches in a row: host operations, the first pallas_call, host operations, the second
  pallas_call, host operations. The contents of every buffer at each boundary are a fold through the program from the
  launch memory; the last of these folds, read at the result buffer, is what the program returns. The statement is the
  frame's — every weakly fair execution terminates, nothing faults, the argument arrays end unchanged — with one more
  conjunct: the result buffer ends holding the last fold's contents there.
-/
import proofs.«136547_j57251914056097_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, with the result buffer at the last boundary's contents
    and the five argument arrays as launched. -/
theorem run : θ_run defs (onTc (τ := τ) (main (F := F))) ⟨m, fun _ => 0, ρ⟩ (fun r => ∀ c : Dev nD,
      r.2.mem ((c.tc : Thread nD τ).loc main_v49) = W5 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v49 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Whole

end
-- ==== Proof.StatsPieces.lean ====
/-
  What one grid point of the first pallas_call leaves in its three output blocks.

  At every point the body stores the product block (the [16000, 64] feature block times the [64, 32] weight) into the
  first output, and adds the product's column sums, and the column sums of its squares, into the two [1, 32] accumulator
  blocks. At the first point the accumulators are first set to zero; at every later point they hold what the point before
  left. So after a point: the product of the point's input blocks; the old sum (zero at the first point) plus the
  column sums; the old sum of squares plus the squares' column sums.
-/
import proofs.«136547_j57251914056097_1_alg».proof.Proof.Gen.KernelIdeal.Frame
import Idealize.ShloMosaic.Lib.Pipeline.Value
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz : (![0, 0] : Fin 2 → Nat) = fun _ => 0 := funext fun a => by fin_cases a <;> rfl

/-- A later point leaves the product of its input blocks in the first output. -/
theorem out_B_3 (c : Dev nD) (i : grid0.Coords) (a1 : Memref sig .tc .vmem S16000x32 .f32) (h1 : a1.IsWhole) (a2 : Memref sig .tc .vmem S16000x32 .f32) (h2 : a2.IsWhole) (a3 : Memref sig .tc .vmem S64x32 .f32) (h3 : a3.IsWhole) (a4 : Memref sig .tc .vmem S16000x32 .f32) (h4 : a4.IsWhole) (a5 : Memref sig .tc .vmem S1x32 .f32) (h5 : a5.IsWhole) (a6 : Memref sig .tc .vmem S1x32 .f32) (h6 : a6.IsWhole) (hc : ¬cond0_0 i) (x0 x1 : Vec F S16000x32 .f32) (x2 : Vec F S64x32 .f32) (xo4 xo5 : Vec F S1x32 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S16000x32) hz, View.ld_unit_zero (S := S64x32) hz, View.ld_unit_zero (S := S1x32) hz]

/-- A later point adds the product's column sums to the running sum. -/
theorem out_B_4 (c : Dev nD) (i : grid0.Coords) (a1 : Memref sig .tc .vmem S16000x32 .f32) (h1 : a1.IsWhole) (a2 : Memref sig .tc .vmem S16000x32 .f32) (h2 : a2.IsWhole) (a3 : Memref sig .tc .vmem S64x32 .f32) (h3 : a3.IsWhole) (a4 : Memref sig .tc .vmem S16000x32 .f32) (h4 : a4.IsWhole) (a5 : Memref sig .tc .vmem S1x32 .f32) (h5 : a5.IsWhole) (a6 : Memref sig .tc .vmem S1x32 .f32) (h6 : a6.IsWhole) (hc : ¬cond0_0 i) (x0 x1 : Vec F S16000x32 .f32) (x2 : Vec F S64x32 .f32) (xo4 xo5 : Vec F S1x32 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S16000x32) hz, View.ld_unit_zero (S := S64x32) hz, View.ld_unit_zero (S := S1x32) hz]

/-- A later point adds the column sums of the product's squares to the running sum of squares. -/
theorem out_B_5 (c : Dev nD) (i : grid0.Coords) (a1 : Memref sig .tc .vmem S16000x32 .f32) (h1 : a1.IsWhole) (a2 : Memref sig .tc .vmem S16000x32 .f32) (h2 : a2.IsWhole) (a3 : Memref sig .tc .vmem S64x32 .f32) (h3 : a3.IsWhole) (a4 : Memref sig .tc .vmem S16000x32 .f32) (h4 : a4.IsWhole) (a5 : Memref sig .tc .vmem S1x32 .f32) (h5 : a5.IsWhole) (a6 : Memref sig .tc .vmem S1x32 .f32) (h6 : a6.IsWhole) (hc : ¬cond0_0 i) (x0 x1 : Vec F S16000x32 .f32) (x2 : Vec F S64x32 .f32) (xo4 xo5 : Vec F S1x32 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S16000x32) hz, View.ld_unit_zero (S := S64x32) hz, View.ld_unit_zero (S := S1x32) hz]

/-- The first point leaves the product of its input blocks in the first output. -/
theorem out_A_3 (c : Dev nD) (i : grid0.Coords) (a1 : Memref sig .tc .vmem S16000x32 .f32) (h1 : a1.IsWhole) (a2 : Memref sig .tc .vmem S16000x32 .f32) (h2 : a2.IsWhole) (a3 : Memref sig .tc .vmem S64x32 .f32) (h3 : a3.IsWhole) (a4 : Memref sig .tc .vmem S16000x32 .f32) (h4 : a4.IsWhole) (a5 : Memref sig .tc .vmem S1x32 .f32) (h5 : a5.IsWhole) (a6 : Memref sig .tc .vmem S1x32 .f32) (h6 : a6.IsWhole) (hc : cond0_0 i) (x0 x1 : Vec F S16000x32 .f32) (x2 : Vec F S64x32 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread, h5.read_unread, h6.read_unread, View.ld_unit_zero (S := S16000x32) hz, View.ld_unit_zero (S := S64x32) hz, View.ld_unit_zero (S := S1x32) hz]

/-- The first point sets the running sum to zero and adds the product's column sums to it. -/
theorem out_A_4 (c : Dev nD) (i : grid0.Coords) (a1 : Memref sig .tc .vmem S16000x32 .f32) (h1 : a1.IsWhole) (a2 : Memref sig .tc .vmem S16000x32 .f32) (h2 : a2.IsWhole) (a3 : Memref sig .tc .vmem S64x32 .f32) (h3 : a3.IsWhole) (a4 : Memref sig .tc .vmem S16000x32 .f32) (h4 : a4.IsWhole) (a5 : Memref sig .tc .vmem S1x32 .f32) (h5 : a5.IsWhole) (a6 : Memref sig .tc .vmem S1x32 .f32) (h6 : a6.IsWhole) (hc : cond0_0 i) (x0 x1 : Vec F S16000x32 .f32) (x2 : Vec F S64x32 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x32) hz, View.readCov_unit_zero (S := S1x32) _ hz]
  simp only [View.readAt_eq_ld, h1.read_unread, h2.read_unread, h3.read_unread, h5.read_unread, h6.read_unread, View.ld_unit_zero (S := S16000x32) hz, View.ld_unit_zero (S := S64x32) hz, View.ld_unit_zero (S := S1x32) hz]

/-- The first point sets the running sum of squares to zero and adds the squares' column sums to it. -/
theorem out_A_5 (c : Dev nD) (i : grid0.Coords) (a1 : Memref sig .tc .vmem S16000x32 .f32) (h1 : a1.IsWhole) (a2 : Memref sig .tc .vmem S16000x32 .f32) (h2 : a2.IsWhole) (a3 : Memref sig .tc .vmem S64x32 .f32) (h3 : a3.IsWhole) (a4 : Memref sig .tc .vmem S16000x32 .f32) (h4 : a4.IsWhole) (a5 : Memref sig .tc .vmem S1x32 .f32) (h5 : a5.IsWhole) (a6 : Memref sig .tc .vmem S1x32 .f32) (h6 : a6.IsWhole) (hc : cond0_0 i) (x0 x1 : Vec F S16000x32 .f32) (x2 : Vec F S64x32 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x32) hz, View.readCov_unit_zero (S := S1x32) _ hz]
  simp only [View.readAt_eq_ld, h1.read_unread, h2.read_unread, h3.read_unread, h5.read_unread, h6.read_unread, View.ld_unit_zero (S := S16000x32) hz, View.ld_unit_zero (S := S64x32) hz, View.ld_unit_zero (S := S1x32) hz]

end Cert.KernelIdeal.Stats

end
-- ==== Proof.StatsFold.lean ====
/-
  The first pallas_call's three outputs after every grid point, and its two accumulators as sums.

  After point n the first output's block holds the product of the point's input blocks. The two accumulator blocks are
  a fold over the points: zero, plus the column sums (of the product, of its squares) of point 0, plus those of point 1,
  and so on. So after the last of the 100 points the first accumulator holds, in column o, the sum over all points of
  the column sums of the products — zero plus a sum over the points of sums over the 16000 rows of a block — and the
  second the same with squares.
-/
import proofs.«136547_j57251914056097_1_alg».proof.Proof.StatsPieces
import Idealize.ShloMosaic.Lib.ValueIdx
import Idealize.ShloMosaic.Lib.ValueLayout
import Idealize.ShloMosaic.PureOps.Ideal.Laws

set_option maxRecDepth 16384

noncomputable section

namespace Cert.KernelIdeal.Stats

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The product block of point n: the body's matrix product of the point's three input blocks. -/
def prodAt (c : Dev nD) (n : ℕ) (h : n < cfg0.N) : FVec Ideal S16000x32 .f32 :=
  k0_pay3 (iblk0 V c 0 ⟨n, h⟩) (iblk0 V c 1 ⟨n, h⟩) (iblk0 V c 2 ⟨n, h⟩)

/-- After every point the first output's block is the point's product block. -/
theorem outsAt_fst (c : Dev nD) (n : ℕ) (h : n < cfg0.N) : (outsAt0 V c n h).1 = prodAt V c n h := by
  unfold prodAt
  by_cases h0 : n % 100 = 0
  · rw [outsAt0_A V c ⟨n, h⟩ h0]
    dsimp only
    rw [out_A_3]
  · rw [outsAt0_B V c ⟨n, h⟩ h0]
    dsimp only
    rw [out_B_3]

/-- The column sums of a [16000, 32] block, kept as a [1, 32] row. -/
def colSum (p : FVec Ideal S16000x32 .f32) : FVec Ideal S1x32 .f32 :=
  shapeCast S1x32 (multiReduction .add [0] S32 p 0x00000000#32 reduces_S16000x32_S32 (.inl rfl) rfl) shapeCasts_S32_S1x32

/-- Column o of the column sums is the sum of the block's column o over its 16000 rows. -/
theorem colSum_apply (p : FVec Ideal S16000x32 .f32) (o : Fin 32) :
    colSum p (ix2 (0 : Fin 1) o) = ∑ r : Fin 16000, p (ix2 r o) := by
  unfold colSum
  refine (shapeCast_a_1a_apply _ shapeCasts_S32_S1x32 0 o).trans ?_
  refine (Ideal.multiReduction_add_single p 0x00000000#32 reduces_S16000x32_S32 (.inl rfl) rfl (ix1 o)).trans ?_
  refine Finset.sum_congr rfl fun k _ => congrArg p ?_
  funext a
  match a with
  | ⟨0, _⟩ => rfl
  | ⟨1, _⟩ => rfl

/-- The body's new running sum is the old one plus the product's column sums. -/
theorem pay4_eq (x0 x1 : Vec Ideal S16000x32 .f32) (x2 : Vec Ideal S64x32 .f32) (acc : Vec Ideal S1x32 .f32) :
    k0_pay4 x0 x1 x2 acc = addf acc (colSum (k0_pay3 x0 x1 x2)) := by
  unfold k0_pay4 colSum
  simp only [shapeCast_self]

/-- The body's new running sum of squares is the old one plus the column sums of the product's squares. -/
theorem pay5_eq (x0 x1 : Vec Ideal S16000x32 .f32) (x2 : Vec Ideal S64x32 .f32) (acc : Vec Ideal S1x32 .f32) :
    k0_pay5 x0 x1 x2 acc = addf acc (colSum (mulf (k0_pay3 x0 x1 x2) (k0_pay3 x0 x1 x2))) := by
  unfold k0_pay5 colSum
  simp only [shapeCast_self]

/-- The zero block the first point stores into each accumulator. -/
theorem pay1_apply (i : S1x32.Idx) : (k0_pay1 (F := Ideal)) i = Ideal.ofBits .f32 0x00000000#32 := rfl
theorem pay2_apply (i : S1x32.Idx) : (k0_pay2 (F := Ideal)) i = Ideal.ofBits .f32 0x00000000#32 := rfl

/-- What point n adds to the running sum (zero past the grid, where it is never used). -/
def addend4 (c : Dev nD) (n : ℕ) (i : S1x32.Idx) : EReal :=
  if h : n < cfg0.N then colSum (prodAt V c n h) i else 0
/-- What point n adds to the running sum of squares. -/
def addend5 (c : Dev nD) (n : ℕ) (i : S1x32.Idx) : EReal :=
  if h : n < cfg0.N then colSum (mulf (prodAt V c n h) (prodAt V c n h)) i else 0

/-- After the last point the first accumulator is zero plus the points' addends. -/
theorem sum_last (c : Dev nD) (h : 100 * 0 + 99 < cfg0.N) (i : S1x32.Idx) :
    (outsAt0 V c (100 * 0 + 99) h).2.1 i
      = Ideal.ofBits .f32 0x00000000#32 + ∑ s ∈ Finset.range (99 + 1), addend4 V c (100 * 0 + s) i := by
  have e := Pipeline.eq_accAt (N := cfg0.N) (fun n h => (outsAt0 V c n h).2.1) 100
    (fun n h => k0_pay4 (iblk0 V c 0 ⟨n, h⟩) (iblk0 V c 1 ⟨n, h⟩) (iblk0 V c 2 ⟨n, h⟩) (k0_pay1 (F := Ideal)))
    (fun n h acc => k0_pay4 (iblk0 V c 0 ⟨n, h⟩) (iblk0 V c 1 ⟨n, h⟩) (iblk0 V c 2 ⟨n, h⟩) acc)
    (fun n h h0 => by
      show (outsAt0 V c n h).2.1 = _
      rw [outsAt0_A V c ⟨n, h⟩ h0]
      dsimp only
      rw [out_A_4])
    (fun n h h0 => by
      show (outsAt0 V c (n + 1) h).2.1 = k0_pay4 _ _ _ (outsAt0 V c n _).2.1
      rw [outsAt0_B V c ⟨n + 1, h⟩ h0]
      dsimp only
      rw [out_B_4]
      rfl)
    0 99 (by decide) h
  rw [show (outsAt0 V c (100 * 0 + 99) h).2.1 = _ from e]
  refine Pipeline.accAt_add_apply _ _ (fun _ => Ideal.ofBits .f32 0x00000000#32) (addend4 V c) (100 * 0) 99 ?_ ?_ 99 (le_refl _) h i
  · intro h' j
    rw [pay4_eq]
    unfold addend4 prodAt
    rw [dif_pos h']
    rfl
  · intro n h' acc j _ _
    show k0_pay4 (F := Ideal) _ _ _ acc j = _
    rw [pay4_eq]
    unfold addend4 prodAt
    rw [dif_pos h']
    rfl

/-- After the last point the second accumulator is zero plus the points' addends. -/
theorem sq_last (c : Dev nD) (h : 100 * 0 + 99 < cfg0.N) (i : S1x32.Idx) :
    (outsAt0 V c (100 * 0 + 99) h).2.2 i
      = Ideal.ofBits .f32 0x00000000#32 + ∑ s ∈ Finset.range (99 + 1), addend5 V c (100 * 0 + s) i := by
  have e := Pipeline.eq_accAt (N := cfg0.N) (fun n h => (outsAt0 V c n h).2.2) 100
    (fun n h => k0_pay5 (iblk0 V c 0 ⟨n, h⟩) (iblk0 V c 1 ⟨n, h⟩) (iblk0 V c 2 ⟨n, h⟩) (k0_pay2 (F := Ideal)))
    (fun n h acc => k0_pay5 (iblk0 V c 0 ⟨n, h⟩) (iblk0 V c 1 ⟨n, h⟩) (iblk0 V c 2 ⟨n, h⟩) acc)
    (fun n h h0 => by
      show (outsAt0 V c n h).2.2 = _
      rw [outsAt0_A V c ⟨n, h⟩ h0]
      dsimp only
      rw [out_A_5])
    (fun n h h0 => by
      show (outsAt0 V c (n + 1) h).2.2 = k0_pay5 _ _ _ (outsAt0 V c n _).2.2
      rw [outsAt0_B V c ⟨n + 1, h⟩ h0]
      dsimp only
      rw [out_B_5]
      rfl)
    0 99 (by decide) h
  rw [show (outsAt0 V c (100 * 0 + 99) h).2.2 = _ from e]
  refine Pipeline.accAt_add_apply _ _ (fun _ => Ideal.ofBits .f32 0x00000000#32) (addend5 V c) (100 * 0) 99 ?_ ?_ 99 (le_refl _) h i
  · intro h' j
    rw [pay5_eq]
    unfold addend5 prodAt
    rw [dif_pos h']
    rfl
  · intro n h' acc j _ _
    show k0_pay5 (F := Ideal) _ _ _ acc j = _
    rw [pay5_eq]
    unfold addend5 prodAt
    rw [dif_pos h']
    rfl

end Cert.KernelIdeal.Stats

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibConcatWide.lean ====
/-
  Two matrices set side by side, read at an entry.

  The concatenation along the columns of an [n, w₁] matrix a and an [n, w₂] matrix b is the [n, W] matrix (W = w₁ + w₂)
  whose entry (r, k) is a(r, k) for k < w₁ and b(r, k − w₁) from column w₁ on.
-/
import Idealize.ShloMosaic.Lib.Pipeline.Value
import Idealize.ShloMosaic.Lib.ValueIdx

noncomputable section

namespace Cert.Lib

open Idealize.ShloMosaic Idealize.ShloMosaic.ValueIdx

variable {α : Type}

/-- Two matrices side by side, read at a column of the first: that entry of the first. -/
theorem concat_wide_left {n w1 w2 W : Nat}
    (h : Shape.Concatenates [(⟨2, ![n, w1]⟩ : Shape), ⟨2, ![n, w2]⟩] ⟨2, ![n, W]⟩ 1)
    (a : (⟨2, ![n, w1]⟩ : Shape).Idx → α) (b : (⟨2, ![n, w2]⟩ : Shape).Idx → α) (r : Fin n) (k : Fin W)
    (hk : k.val < w1) :
    concatenate ⟨2, ![n, W]⟩ 1 [⟨⟨2, ![n, w1]⟩, a⟩, ⟨⟨2, ![n, w2]⟩, b⟩] h (ix2 r k) = a (ix2 r ⟨k.val, hk⟩) :=
  concatenate_pair_apply_left 1 a b h (ix2 r k) rfl (ix2 r ⟨k.val, hk⟩)
    (fun c => match c with | ⟨0, _⟩ => rfl | ⟨1, _⟩ => rfl)

/-- … and at a column past the first: the second's entry, the first's width less. -/
theorem concat_wide_right {n w1 w2 W : Nat}
    (h : Shape.Concatenates [(⟨2, ![n, w1]⟩ : Shape), ⟨2, ![n, w2]⟩] ⟨2, ![n, W]⟩ 1)
    (a : (⟨2, ![n, w1]⟩ : Shape).Idx → α) (b : (⟨2, ![n, w2]⟩ : Shape).Idx → α) (r : Fin n) (k : Fin W)
    (hk : w1 ≤ k.val) (hlt : k.val - w1 < w2) :
    concatenate ⟨2, ![n, W]⟩ 1 [⟨⟨2, ![n, w1]⟩, a⟩, ⟨⟨2, ![n, w2]⟩, b⟩] h (ix2 r k) = b (ix2 r ⟨k.val - w1, hlt⟩) :=
  concatenate_pair_apply_right 1 a b h (ix2 r k) rfl rfl (ix2 r ⟨k.val - w1, hlt⟩)
    (fun c hc => match c, hc with
      | ⟨0, _⟩, _ => rfl
      | ⟨1, _⟩, hc => absurd rfl hc)
    (by show (k.val - w1) + w1 = k.val; omega)

end Cert.Lib

end
-- ==== Proof.NormDefs.lean ====
/-
  Batch normalisation of one column of numbers, written the two ways the two programs compute it.

  For a finite family Y of extended reals (one output channel of the edge convolution, one number per edge), a gain g,
  a shift b, a count n and a positive eps:
  * from the two moments: mean = (∑ Y)/n, variance = (∑ Y²)/n − mean², scale = g · rsqrt(variance + eps), and the
    entry e becomes Y e · scale + (b − mean · scale);
  * from the centred values: mean = (∑ Y)/n, variance = (∑ (Y − mean)²)/n, and the entry e becomes
    ((Y e − mean) · rsqrt(variance + eps)) · g + b.
-/
import Mathlib.Data.EReal.Inv
import Idealize.ShloMosaic.PureOps.Ideal

noncomputable section

namespace Cert.EdgeNorm

open Idealize.ShloMosaic

variable {ι : Type} [Fintype ι]

/-- Batch-norm of entry e from the two moments (sum and sum of squares). -/
def viaMoments (Y : ι → EReal) (g b n eps : EReal) (e : ι) : EReal :=
  Y e * (g * Ideal.rsqrt ((Ideal.div (∑ e', Y e' * Y e') n - Ideal.div (∑ e', Y e') n * Ideal.div (∑ e', Y e') n) + eps))
    + (b - Ideal.div (∑ e', Y e') n * (g * Ideal.rsqrt ((Ideal.div (∑ e', Y e' * Y e') n - Ideal.div (∑ e', Y e') n * Ideal.div (∑ e', Y e') n) + eps)))

/-- Batch-norm of entry e from the centred values. -/
def viaCentred (Y : ι → EReal) (g b n eps : EReal) (e : ι) : EReal :=
  ((Y e - Ideal.div (∑ e', Y e') n)
      * Ideal.rsqrt (Ideal.div (∑ e', (Y e' - Ideal.div (∑ e'', Y e'') n) * (Y e' - Ideal.div (∑ e'', Y e'') n)) n + eps)) * g + b

end Cert.EdgeNorm

end
-- ==== Proof.Spec.lean ====
/-
  The specification: what one entry of the normalised, activated edge features is, as a function of the gathered
  node features, the transposed weight, the gain and the shift.

  For an edge e with gathered source row xs(e, ·) and target row xt(e, ·) (32 numbers each), the edge's feature vector
  is the 64 numbers [xs(e, ·), xt(e, ·) − xs(e, ·)], and its convolution at output channel o is the inner product of
  that vector with column o of the transposed weight. Over all 1,600,000 edges, channel o is batch-normalised
  (NormDefs: from the two moments, or from the centred values) with the gain g(o), the shift b(o), the count
  1,600,000 and the f32 nearest 1e-5, both kept as their f32 words; then ELU: z where z > 0, exp z − 1 elsewhere.
-/
import proofs.«136547_j57251914056097_1_alg».proof.Proof.NormDefs
import Idealize.ShloMosaic.Lib.ValueIdx

noncomputable section

namespace Cert.EdgeConv

open Idealize.ShloMosaic Idealize.ShloMosaic.ValueIdx Cert.EdgeNorm

/-- The shape of the gathered rows and of the convolution's result: one row of 32 per edge. -/
abbrev SE : Shape := ⟨2, ![1600000, 32]⟩
/-- The shape of the transposed weight. -/
abbrev SW : Shape := ⟨2, ![64, 32]⟩
/-- The shape of the gain and of the shift. -/
abbrev SC : Shape := ⟨1, ![32]⟩

/-- Entry k of edge e's feature vector [xs(e, ·), xt(e, ·) − xs(e, ·)]. -/
def feat (xs xt : SE.Idx → EReal) (e : Fin 1600000) (k : Fin 64) : EReal :=
  if h : k.val < 32 then xs (ix2 e (⟨k.val, h⟩ : Fin 32))
  else xt (ix2 e (⟨k.val - 32, by have := k.isLt; omega⟩ : Fin 32)) - xs (ix2 e (⟨k.val - 32, by have := k.isLt; omega⟩ : Fin 32))

/-- The convolution of edge e at output channel o. -/
def conv (xs xt : SE.Idx → EReal) (wt : SW.Idx → EReal) (e : Fin 1600000) (o : Fin 32) : EReal :=
  ∑ k : Fin 64, feat xs xt e k * wt (ix2 k o)

/-- ELU with unit slope: z where z is positive, exp z − 1 elsewhere. -/
def elu (z : EReal) : EReal := if 0 < z then z else Ideal.exp z - 1

/-- The number of edges, as the f32 word both programs divide by. -/
abbrev count : EReal := Ideal.ofBits .f32 0x49C35000#32
/-- The f32 word nearest 1e-5 that both programs add to the variance. -/
abbrev eps : EReal := Ideal.ofBits .f32 0x3727C5AC#32

/-- The activated entry (e, o), the normalisation computed from the two moments. -/
def outMoments (xs xt : SE.Idx → EReal) (wt : SW.Idx → EReal) (g b : SC.Idx → EReal) (e : Fin 1600000) (o : Fin 32) : EReal :=
  elu (viaMoments (fun e' : Fin 1600000 => conv xs xt wt e' o) (g (ix1 o)) (b (ix1 o)) count eps e)

/-- The activated entry (e, o), the normalisation computed from the centred values. -/
def outCentred (xs xt : SE.Idx → EReal) (wt : SW.Idx → EReal) (g b : SC.Idx → EReal) (e : Fin 1600000) (o : Fin 32) : EReal :=
  elu (viaCentred (fun e' : Fin 1600000 => conv xs xt wt e' o) (g (ix1 o)) (b (ix1 o)) count eps e)

end Cert.EdgeConv

end
-- ==== Proof.StatsValue.lean ====
/-
  The first pallas_call's product output, as one matrix.

  A point's product block at (r, o) is the inner product, over the 64 feature columns, of row r of the feature block
  [x_s block, x_t block − x_s block] with column o of the weight block. Point t's input blocks are rows
  16000·t … 16000·t + 15999 of the gathered arrays and the whole weight, so that entry is the specification's
  convolution of edge 16000·t + r at channel o. Every point writes its block back, the blocks tile the array, and
  so after the run the product array is the convolution of every edge at every channel.
-/
import proofs.«136547_j57251914056097_1_alg».proof.Proof.StatsFold
import proofs.«136547_j57251914056097_1_alg».proof.Proof.LibMatmul2
import proofs.«136547_j57251914056097_1_alg».proof.Proof.LibConcatWide
import proofs.«136547_j57251914056097_1_alg».proof.Proof.Spec
import Idealize.ShloMosaic.Lib.Pipeline.Value

set_option maxRecDepth 16384

noncomputable section

namespace Cert.KernelIdeal.Stats

open Cert.KernelIdeal Cert.KernelIdeal.Gen
open Idealize.ShloMosaic Idealize.ShloMosaic.TcCoe Idealize.ShloMosaic.ValueIdx Idealize.SL.Sem
open Idealize.ShloMosaic.Pipeline (Dat)
open Cert.EdgeConv (feat conv)

/-- Entry k of row r of a feature block [a, b − a]. -/
def featBlk (a b : FVec Ideal S16000x32 .f32) (r : Fin 16000) (k : Fin 64) : EReal :=
  if h : k.val < 32 then a (ix2 r (⟨k.val, h⟩ : Fin 32))
  else b (ix2 r (⟨k.val - 32, by have := k.isLt; omega⟩ : Fin 32)) - a (ix2 r (⟨k.val - 32, by have := k.isLt; omega⟩ : Fin 32))

/-- The body's product at (r, o): row r of the feature block against column o of the weight block. -/
theorem pay3_apply (x0 x1 : FVec Ideal S16000x32 .f32) (x2 : FVec Ideal S64x32 .f32) (r : Fin 16000) (o : Fin 32) :
    k0_pay3 (F := Ideal) x0 x1 x2 (ix2 r o) = ∑ k : Fin 64, featBlk x0 x1 r k * x2 (ix2 k o) := by
  unfold k0_pay3
  simp only [shapeCast_self]
  refine (Cert.Lib.matmul2_zero_apply (A := 16000) (K := 64) (B := 32) Facts₀.dot_S16000x64_S64x32_S16000x32_1_0_0_1_n_n_wf _ _ r o).trans ?_
  refine Finset.sum_congr rfl fun k _ => ?_
  congr 1
  rw [shapeCast_self x0, shapeCast_self x1]
  show concatenate S16000x64 1 [⟨S16000x32, x0⟩, ⟨S16000x32, subf x1 x0⟩] Facts₀.concatenates_S16000x32_S16000x32_S16000x64_d1 (ix2 r k) = _
  unfold featBlk
  by_cases h : k.val < 32
  · rw [dif_pos h]
    exact Cert.Lib.concat_wide_left (n := 16000) (w1 := 32) (w2 := 32) (W := 64) _ x0 (subf x1 x0) r k h
  · rw [dif_neg h]
    exact Cert.Lib.concat_wide_right (n := 16000) (w1 := 32) (w2 := 32) (W := 64) _ x0 (subf x1 x0) r k (by omega)
      (by have := k.isLt; omega)

variable (V : (c : Dev nD) → (b : Ref sig .tc) → Buf (Elt Ideal) ((c : Thread nD τ).loc b))

/-- The printed index maps, decided over the grid: the row-blocked windows sit at block row t, the others at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's block of the gathered source rows is rows 16000·t … of that array. -/
theorem blk0_apply (c : Dev nD) (t : Fin cfg0.N) (r : Fin 16000) (k : Fin 32) (hb : 16000 * t.val + r.val < 1600000) :
    iblk0 V c 0 t (ix2 r k) = (V c main_v12 : S1600000x32.Idx → EReal) (ix2 (⟨16000 * t.val + r.val, hb⟩ : Fin 1600000) k) := by
  unfold iblk0
  rw [View.read_apply]
  show V c main_v12 _ = V c main_v12 _
  refine congrArg _ ?_
  funext a
  apply Fin.ext
  match a with
  | ⟨0, _⟩ => show win0_0.index t (0 : Fin 2) * 16000 + 1 * r.val = 16000 * t.val + r.val; rw [(idx_facts t).1]; omega
  | ⟨1, _⟩ => show win0_0.index t (1 : Fin 2) * 32 + 1 * k.val = k.val; rw [(idx_facts t).2.1]; omega

/-- Point t's block of the gathered target rows is rows 16000·t … of that array. -/
theorem blk1_apply (c : Dev nD) (t : Fin cfg0.N) (r : Fin 16000) (k : Fin 32) (hb : 16000 * t.val + r.val < 1600000) :
    iblk0 V c 1 t (ix2 r k) = (V c main_v19 : S1600000x32.Idx → EReal) (ix2 (⟨16000 * t.val + r.val, hb⟩ : Fin 1600000) k) := by
  unfold iblk0
  rw [View.read_apply]
  show V c main_v19 _ = V c main_v19 _
  refine congrArg _ ?_
  funext a
  apply Fin.ext
  match a with
  | ⟨0, _⟩ => show win0_1.index t (0 : Fin 2) * 16000 + 1 * r.val = 16000 * t.val + r.val; rw [(idx_facts t).2.2.1]; omega
  | ⟨1, _⟩ => show win0_1.index t (1 : Fin 2) * 32 + 1 * k.val = k.val; rw [(idx_facts t).2.2.2.1]; omega

/-- Every point's block of the weight is the whole weight. -/
theorem blk2_apply (c : Dev nD) (t : Fin cfg0.N) (k : Fin 64) (o : Fin 32) :
    iblk0 V c 2 t (ix2 k o) = (V c main_v20 : S64x32.Idx → EReal) (ix2 k o) := by
  unfold iblk0
  rw [View.read_apply]
  show V c main_v20 _ = V c main_v20 _
  refine congrArg _ ?_
  funext a
  apply Fin.ext
  match a with
  | ⟨0, _⟩ => show win0_2.index t (0 : Fin 2) * 64 + 1 * k.val = k.val; rw [(idx_facts t).2.2.2.2.1]; omega
  | ⟨1, _⟩ => show win0_2.index t (1 : Fin 2) * 32 + 1 * o.val = o.val; rw [(idx_facts t).2.2.2.2.2.1]; omega

/-- Point n's product block at (r, o) is the convolution of edge 16000·n + r at channel o. -/
theorem prodAt_apply (c : Dev nD) (n : ℕ) (h : n < cfg0.N) (r : Fin 16000) (o : Fin 32) (hb : 16000 * n + r.val < 1600000) :
    prodAt V c n h (ix2 r o) = conv (V c main_v12) (V c main_v19) (V c main_v20) (⟨16000 * n + r.val, hb⟩ : Fin 1600000) o := by
  unfold prodAt
  rw [pay3_apply]
  unfold conv
  refine Finset.sum_congr rfl fun k _ => ?_
  rw [blk2_apply V c ⟨n, h⟩ k o]
  refine congrArg (· * _) ?_
  unfold featBlk feat
  by_cases hk : k.val < 32
  · rw [dif_pos hk, dif_pos hk]
    exact blk0_apply V c ⟨n, h⟩ r _ hb
  · rw [dif_neg hk, dif_neg hk, blk0_apply V c ⟨n, h⟩ r _ hb, blk1_apply V c ⟨n, h⟩ r _ hb]

/-- The product array as one matrix: the convolution of every edge at every channel. -/
def prodArr (xs xt : S1600000x32.Idx → EReal) (wt : S64x32.Idx → EReal) : S1600000x32.Idx → EReal :=
  fun i => conv xs xt wt (⟨(i 0).val, (i 0).isLt⟩ : Fin 1600000) (⟨(i 1).val, (i 1).isLt⟩ : Fin 32)

theorem prodArr_apply (xs xt : S1600000x32.Idx → EReal) (wt : S64x32.Idx → EReal) (e : Fin 1600000) (o : Fin 32) :
    prodArr xs xt wt (ix2 e o) = conv xs xt wt e o := rfl

/-- What point t writes back is block t of that matrix. -/
theorem flushed3_eq (c : Dev nD) (t : Fin cfg0.N) :
    (dat0 V c).flushed 3 t = ((cfg0.win 3).blk t).view.read (Elt Ideal) (prodArr (V c main_v12) (V c main_v19) (V c main_v20)) := by
  show (cfg0.win 3).cut (grid0.coords t) ((dat0 V c).after 3 t) = _
  rw [after0_3, outsAt_fst]
  have hN : t.val < 100 := lt_of_lt_of_eq t.isLt (show cfg0.N = 100 from N_0)
  funext j
  obtain ⟨r, o, rfl⟩ : ∃ (r : Fin 16000) (o : Fin 32), j = ix2 r o := ⟨j 0, j 1, eq_ix2 j⟩
  have hb : 16000 * t.val + r.val < 1600000 := by have := r.isLt; omega
  show prodAt V c t.val t.isLt (ix2 r o) = prodArr (V c main_v12) (V c main_v19) (V c main_v20) (((cfg0.win 3).blk t).view.emb (ix2 r o))
  rw [prodAt_apply V c t.val t.isLt r o hb]
  unfold prodArr
  refine congrArg₂ (conv (V c main_v12) (V c main_v19) (V c main_v20)) (Fin.ext ?_) (Fin.ext ?_)
  · show 16000 * t.val + r.val = win0_3.index t (0 : Fin 2) * 16000 + 1 * r.val
    rw [(idx_facts t).2.2.2.2.2.2.1]; omega
  · show o.val = win0_3.index t (1 : Fin 2) * 32 + 1 * o.val
    rw [(idx_facts t).2.2.2.2.2.2.2]; omega

/-- An index of the array is in point t's block iff each coordinate is in the block's range on its axis. -/
theorem mem_blk3 (t : Fin cfg0.N) (i : S1600000x32.Idx) :
    i ∈ ((cfg0.win 3).blk t).view.set ↔ ∀ a : Fin 2, win0_3.index t a * S16000x32.size a ≤ (i a).val ∧ (i a).val < win0_3.index t a * S16000x32.size a + S16000x32.size a := by
  show i ∈ ((View.whole main_v21_0).slice (win0_3.rect t)).set ↔ _
  rw [View.set_slice_whole, Rect.mem_set_unit]
  exact Iff.rfl

/-- After the run the product array is the convolution of every edge at every channel. -/
theorem final3 (c : Dev nD) :
    (dat0 V c).arrAt 3 cfg0.N = prodArr (V c main_v12) (V c main_v19) (V c main_v20) :=
  (dat0 V c).arrAt_eq_of_cover 3 _ (fun t _ => flushed3_eq V c t) fun i => by
    have hi0 : (i 0).val < 1600000 := (i 0).isLt
    have hi1 : (i 1).val < 32 := (i 1).isLt
    have hN : cfg0.N = 100 := N_0
    refine ⟨⟨(i 0).val / 16000, by rw [hN]; omega⟩, flush0_3 _, ?_⟩
    rw [mem_blk3]
    intro a
    match a with
    | ⟨0, _⟩ =>
      show win0_3.index _ (0 : Fin 2) * 16000 ≤ (i 0).val ∧ (i 0).val < win0_3.index _ (0 : Fin 2) * 16000 + 16000
      rw [(idx_facts _).2.2.2.2.2.2.1]; dsimp only; omega
    | ⟨1, _⟩ =>
      show win0_3.index _ (1 : Fin 2) * 32 ≤ (i 1).val ∧ (i 1).val < win0_3.index _ (1 : Fin 2) * 32 + 32
      rw [(idx_facts _).2.2.2.2.2.2.2]; omega

end Cert.KernelIdeal.Stats

end
-- ==== Proof.LibBandSum.lean ====
/-
  A sum over 2048 consecutive indices, split into 8 bands of 256.

  A sum over the first m · n naturals is the sum, over the bands j < m, of the sums over the n naturals starting at
  n · j: one band more adds the n indices from n · m on. Both sides of the identity are such sums, a sum over `Fin k` of a
  function of the value being the sum over the first k naturals.
-/
import Mathlib.Data.Fintype.BigOperators
import Mathlib.Algebra.BigOperators.Intervals

namespace Cert.Lib

/-- The first m · n naturals, band by band: m bands of n consecutive indices, band j starting at n · j. -/
theorem sum_range_bands {M : Type*} [AddCommMonoid M] (f : ℕ → M) (n : ℕ) :
    ∀ m : ℕ, ∑ j ∈ Finset.range m, ∑ p ∈ Finset.range n, f (n * j + p) = ∑ q ∈ Finset.range (m * n), f q
  | 0 => by rw [Finset.sum_range_zero, Nat.zero_mul, Finset.sum_range_zero]
  | m + 1 => by
    rw [Finset.sum_range_succ, sum_range_bands f n m, Nat.add_one_mul, Finset.sum_range_add, Nat.mul_comm n m]

/-- Eight bands of 256 make up the first 2048 indices. -/
theorem sum_bands {M : Type*} [AddCommMonoid M] (f : ℕ → M) :
    ∑ j ∈ Finset.range 8, ∑ p : Fin 256, f (256 * j + p.val) = ∑ q : Fin 2048, f q.val := by
  have h : ∑ q : Fin 2048, f q.val = ∑ q ∈ Finset.range (8 * 256), f q := Fin.sum_univ_eq_sum_range f 2048
  rw [h, ← sum_range_bands f 256 8]
  exact Finset.sum_congr rfl fun j _ => Fin.sum_univ_eq_sum_range (fun p => f (256 * j + p)) 256

end Cert.Lib
-- ==== Proof.StatsAcc.lean ====
/-
  The first pallas_call's two accumulator arrays after its run, as sums over all 1,600,000 rows.

  Each accumulator is a [1, 32] array whose one block never moves: it is written back once, after the last of the 100
  grid points, and that one write-back covers the whole array. So the array ends holding what the accumulator's block
  holds after the last point: zero plus, over the 100 points, the column sums of the point's product block (for the second
  accumulator, of the squares). When every point's product block is the point's band of 16000 rows of one whole matrix Y,
  the 100 bands of 16000 rows make up the 1,600,000 rows, and the sum over the points of the sums over a band is the sum
  over all rows.
-/
import proofs.«136547_j57251914056097_1_alg».proof.Proof.StatsFold
import proofs.«136547_j57251914056097_1_alg».proof.Proof.LibBandSum
import Idealize.ShloMosaic.Lib.Pipeline.Value
import Idealize.ShloMosaic.Lib.ValueIdx
import Idealize.ShloMosaic.PureOps.Ideal.Laws

set_option maxRecDepth 16384

noncomputable section

namespace Cert.KernelIdeal.Stats

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The bands of rows -/

/-- 100 bands of 16000 consecutive rows make up the 1,600,000 rows: the sum over the bands of the sums over a band's
    rows is the sum over all rows. (Row 16000 s + r of band s is always a row of the matrix; the other branch is never
    taken.) -/
theorem sum_bands_rows {M : Type*} [AddCommMonoid M] (g : Fin 1600000 → M) :
    ∑ s ∈ Finset.range 100, ∑ r : Fin 16000,
        (if h : 16000 * s + r.val < 1600000 then g ⟨16000 * s + r.val, h⟩ else 0)
      = ∑ e : Fin 1600000, g e := by
  have h1 : ∑ e : Fin 1600000, g e
      = ∑ e : Fin 1600000, (fun q : ℕ => if h : q < 1600000 then g ⟨q, h⟩ else 0) e.val :=
    Finset.sum_congr rfl fun e _ => by
      show g e = if h : e.val < 1600000 then g ⟨e.val, h⟩ else 0
      rw [dif_pos e.isLt]
  have h2 := Cert.Lib.sum_range_bands (fun q : ℕ => if h : q < 1600000 then g ⟨q, h⟩ else 0) 16000 100
  rw [show 100 * 16000 = 1600000 from by norm_num] at h2
  rw [h1, Fin.sum_univ_eq_sum_range (fun q : ℕ => if h : q < 1600000 then g ⟨q, h⟩ else 0) 1600000, ← h2]
  refine Finset.sum_congr rfl fun s _ => ?_
  exact Fin.sum_univ_eq_sum_range (fun p : ℕ => if h : 16000 * s + p < 1600000 then g ⟨16000 * s + p, h⟩ else 0) 16000

/-! ## The last point, and what the accumulators hold after it -/

/-- The last grid point is a point of the grid. -/
theorem last_lt : 100 * 0 + 99 < cfg0.N := by rw [show cfg0.N = 100 from N_0]; decide

/-- The last grid point. -/
abbrev tLast : Fin cfg0.N := ⟨100 * 0 + 99, last_lt⟩

/-- What the first accumulator's block holds after the last point, as contents of its [1, 32] array. -/
def res4 (c : Dev nD) : Buf (Elt Ideal) ((c : Thread nD τ).loc main_v21_1) :=
  (outsAt0 V c (100 * 0 + 99) last_lt).2.1

/-- What the second accumulator's block holds after the last point, as contents of its [1, 32] array. -/
def res5 (c : Dev nD) : Buf (Elt Ideal) ((c : Thread nD τ).loc main_v21_2) :=
  (outsAt0 V c (100 * 0 + 99) last_lt).2.2

/-- Block (0, 0) of the first accumulator's [1, 32] array, read through its zero offsets at the last point, is the array:
    any contents G of the array are what a write-back of a block holding G writes. -/
theorem blk4_read (c : Dev nD) (G : Buf (Elt Ideal) ((c : Thread nD τ).loc main_v21_1)) :
    ((cfg0.win 4).blk tLast).view.read (Elt Ideal) G = (cfg0.win 4).cut (grid0.coords tLast) G := by
  have hz' : (fun a => win0_4.index tLast a * main_v21_1.ty.shape.size a) = fun _ => 0 :=
    funext fun a => by fin_cases a <;> decide +kernel
  exact Memref.read_access_unit_zero (Elt Ideal) main_v21_1 hz' (fun a => by rw [congrFun hz' a]; simp) G

/-- The same for the second accumulator's array. -/
theorem blk5_read (c : Dev nD) (G : Buf (Elt Ideal) ((c : Thread nD τ).loc main_v21_2)) :
    ((cfg0.win 5).blk tLast).view.read (Elt Ideal) G = (cfg0.win 5).cut (grid0.coords tLast) G := by
  have hz' : (fun a => win0_5.index tLast a * main_v21_2.ty.shape.size a) = fun _ => 0 :=
    funext fun a => by fin_cases a <;> decide +kernel
  exact Memref.read_access_unit_zero (Elt Ideal) main_v21_2 hz' (fun a => by rw [congrFun hz' a]; simp) G

/-- The outputs after a point do not depend on how the point is named: as a point of the grid, or by its number. -/
theorem outsAt_fin (c : Dev nD) (n : ℕ) (h : n < cfg0.N) (t : Fin cfg0.N) (ht : t = ⟨n, h⟩) :
    outsAt0 V c t.val t.isLt = outsAt0 V c n h := by
  subst ht; rfl

/-- The one write-back of the first accumulator is at the last point (the only point whose index is 99 modulo 100), and
    it writes what the block holds after that point. -/
theorem flushed4_eq (c : Dev nD) (t : Fin cfg0.N) (hf : (cfg0.win 4).flush t = true) :
    (dat0 V c).flushed 4 t = ((cfg0.win 4).blk t).view.read (Elt Ideal) (res4 V c) := by
  have hN : cfg0.N = 100 := N_0
  have h99 : t.val = 99 := by have := (flush0_4 t).mp hf; have := t.isLt; omega
  obtain rfl : t = tLast := Fin.ext h99
  show (cfg0.win 4).cut (grid0.coords tLast) ((dat0 V c).after 4 tLast) = _
  rw [after0_4, outsAt_fin V c (100 * 0 + 99) last_lt tLast rfl]
  unfold res4
  generalize (outsAt0 V c (100 * 0 + 99) last_lt).2.1 = G
  exact (blk4_read c G).symm

/-- The one write-back of the second accumulator, likewise. -/
theorem flushed5_eq (c : Dev nD) (t : Fin cfg0.N) (hf : (cfg0.win 5).flush t = true) :
    (dat0 V c).flushed 5 t = ((cfg0.win 5).blk t).view.read (Elt Ideal) (res5 V c) := by
  have hN : cfg0.N = 100 := N_0
  have h99 : t.val = 99 := by have := (flush0_5 t).mp hf; have := t.isLt; omega
  obtain rfl : t = tLast := Fin.ext h99
  show (cfg0.win 5).cut (grid0.coords tLast) ((dat0 V c).after 5 tLast) = _
  rw [after0_5, outsAt_fin V c (100 * 0 + 99) last_lt tLast rfl]
  unfold res5
  generalize (outsAt0 V c (100 * 0 + 99) last_lt).2.2 = G
  exact (blk5_read c G).symm

/-- So the first accumulator's array ends holding what its block holds after the last point: the last point's block
    covers the whole [1, 32] array. -/
theorem final4 (c : Dev nD) : (dat0 V c).arrAt 4 cfg0.N = res4 V c :=
  (dat0 V c).arrAt_eq_of_cover 4 (res4 V c) (flushed4_eq V c) fun i =>
    ⟨tLast, (flush0_4 tLast).mpr rfl, by
      show i ∈ ((View.whole main_v21_1).slice (win0_4.rect tLast)).set
      rw [View.set_slice_whole, Rect.mem_set_unit]
      intro a
      have h0 : (i 0 : Nat) < 1 := (i 0).isLt
      have h1 : (i 1 : Nat) < 32 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 32 from by decide +kernel]
        omega⟩

/-- And the second accumulator's array likewise. -/
theorem final5 (c : Dev nD) : (dat0 V c).arrAt 5 cfg0.N = res5 V c :=
  (dat0 V c).arrAt_eq_of_cover 5 (res5 V c) (flushed5_eq V c) fun i =>
    ⟨tLast, (flush0_5 tLast).mpr rfl, by
      show i ∈ ((View.whole main_v21_2).slice (win0_5.rect tLast)).set
      rw [View.set_slice_whole, Rect.mem_set_unit]
      intro a
      have h0 : (i 0 : Nat) < 1 := (i 0).isLt
      have h1 : (i 1 : Nat) < 32 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 1 from by decide +kernel]
        omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 32 from by decide +kernel]
        omega⟩

/-! ## The arrays as sums over all rows -/

/-- If every point's product block is the corresponding 16000-row band of ONE whole matrix Y, the first accumulator's
    array after the run holds, in column o, zero plus the sum of Y's column o over all 1,600,000 rows. -/
theorem final_sum (c : Dev nD) (Y : S1600000x32.Idx → EReal)
    (hprod : ∀ (n : ℕ) (h : n < cfg0.N) (r : Fin 16000) (o : Fin 32) (hb : 16000 * n + r.val < 1600000),
      prodAt V c n h (ix2 r o) = Y (ix2 (⟨16000 * n + r.val, hb⟩ : Fin 1600000) o))
    (o : Fin 32) :
    ((dat0 (F := Ideal) V c).arrAt 4 cfg0.N : S1x32.Idx → EReal) (ix2 (0 : Fin 1) o)
      = Ideal.ofBits .f32 0x00000000#32 + ∑ e : Fin 1600000, Y (ix2 e o) := by
  have hN : cfg0.N = 100 := N_0
  rw [final4 V c]
  show (outsAt0 V c (100 * 0 + 99) last_lt).2.1 (ix2 (0 : Fin 1) o) = _
  rw [sum_last V c last_lt (ix2 (0 : Fin 1) o), ← sum_bands_rows (fun e : Fin 1600000 => Y (ix2 e o))]
  refine congrArg (fun z : EReal => Ideal.ofBits .f32 0x00000000#32 + z) ?_
  refine Finset.sum_congr rfl fun s hs => ?_
  have hs' : s < 100 := by have := Finset.mem_range.mp hs; omega
  have hsN : s < cfg0.N := by omega
  rw [show 100 * 0 + s = s from by omega]
  unfold addend4
  rw [dif_pos hsN, colSum_apply]
  refine Finset.sum_congr rfl fun r _ => ?_
  have hb : 16000 * s + r.val < 1600000 := by have := r.isLt; omega
  rw [dif_pos hb]
  exact hprod s hsN r o hb

/-- Under the same hypothesis the second accumulator's array holds, in column o, zero plus the sum of the squares of
    Y's column o over all 1,600,000 rows. -/
theorem final_sq (c : Dev nD) (Y : S1600000x32.Idx → EReal)
    (hprod : ∀ (n : ℕ) (h : n < cfg0.N) (r : Fin 16000) (o : Fin 32) (hb : 16000 * n + r.val < 1600000),
      prodAt V c n h (ix2 r o) = Y (ix2 (⟨16000 * n + r.val, hb⟩ : Fin 1600000) o))
    (o : Fin 32) :
    ((dat0 (F := Ideal) V c).arrAt 5 cfg0.N : S1x32.Idx → EReal) (ix2 (0 : Fin 1) o)
      = Ideal.ofBits .f32 0x00000000#32 + ∑ e : Fin 1600000, Y (ix2 e o) * Y (ix2 e o) := by
  have hN : cfg0.N = 100 := N_0
  rw [final5 V c]
  show (outsAt0 V c (100 * 0 + 99) last_lt).2.2 (ix2 (0 : Fin 1) o) = _
  rw [sq_last V c last_lt (ix2 (0 : Fin 1) o), ← sum_bands_rows (fun e : Fin 1600000 => Y (ix2 e o) * Y (ix2 e o))]
  refine congrArg (fun z : EReal => Ideal.ofBits .f32 0x00000000#32 + z) ?_
  refine Finset.sum_congr rfl fun s hs => ?_
  have hs' : s < 100 := by have := Finset.mem_range.mp hs; omega
  have hsN : s < cfg0.N := by omega
  rw [show 100 * 0 + s = s from by omega]
  unfold addend5
  rw [dif_pos hsN, colSum_apply]
  refine Finset.sum_congr rfl fun r _ => ?_
  have hb : 16000 * s + r.val < 1600000 := by have := r.isLt; omega
  rw [dif_pos hb, mulf_apply]
  rw [hprod s hsN r o hb]

end Cert.KernelIdeal.Stats

end
-- ==== Proof.NormAlgebra.lean ====
/-
  Batch normalisation from the two moments (`viaMoments`) versus from the centred values (`viaCentred`), on the
  extended reals; the two definitions are those of the module NormDefs.

  A batch-norm of a finite family of numbers can be computed from the two moments (the sum and the sum of
  squares: variance = mean of squares - square of the mean) or from the centred values (variance = mean of the
  squared deviations). Over the reals the two agree. The extended reals are not a ring, so the identity is stated
  for a family of REAL numbers read in the extended reals, with real scale and shift, a positive real count equal
  to the number of entries and a positive real epsilon: then every intermediate quantity is a real number, the
  two variances are the same nonnegative real, the argument of the reciprocal square root is positive, and the
  claim is an identity of real numbers.

  The module also evaluates three single-precision words: the count 1600000, the epsilon nearest 1e-5, and 1.
-/
import Mathlib.Data.EReal.Inv
import Mathlib.Analysis.SpecialFunctions.Pow.Real
import Idealize.ShloMosaic.PureOps.Ideal
import proofs.«136547_j57251914056097_1_alg».proof.Proof.NormDefs

noncomputable section

namespace Cert.EdgeNorm

open Idealize.ShloMosaic
open scoped BigOperators

variable {ι : Type} [Fintype ι]

/-- A finite sum of reals, read in the extended reals, is the real sum. -/
theorem sum_coe_real {κ : Type} (s : Finset κ) (f : κ → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of the squared deviations from a number m, expanded: Σ (y - m)² = Σ y² - 2 m Σ y + N m². -/
theorem sum_centred_sq (y : ι → ℝ) (m : ℝ) :
    ∑ e, (y e - m) * (y e - m)
      = (∑ e, y e * y e) - 2 * m * (∑ e, y e) + (Fintype.card ι : ℝ) * (m * m) := by
  have hexp : ∀ e, (y e - m) * (y e - m) = y e * y e - 2 * m * y e + m * m := fun e => by ring
  rw [Finset.sum_congr rfl (fun e _ => hexp e), Finset.sum_add_distrib, Finset.sum_sub_distrib,
    ← Finset.mul_sum, Finset.sum_const, Finset.card_univ, nsmul_eq_mul]

/-- The variance from the moments is the variance from the centred values: with N = n entries and c = 1/n,
    (Σ y²) c - ((Σ y) c)² = (Σ (y - (Σ y) c)²) c, because N c = 1. -/
theorem variance_eq (y : ι → ℝ) (n : ℝ) (hn : (Fintype.card ι : ℝ) = n) (hn0 : 0 < n) :
    (∑ e, y e * y e) * (1 / n) - (∑ e, y e) * (1 / n) * ((∑ e, y e) * (1 / n))
      = (∑ e, (y e - (∑ e', y e') * (1 / n)) * (y e - (∑ e', y e') * (1 / n))) * (1 / n) := by
  rw [sum_centred_sq, hn]
  have hn' : n ≠ 0 := ne_of_gt hn0
  field_simp
  ring

/-- The variance from the centred values is nonnegative. -/
theorem variance_nonneg (y : ι → ℝ) (m n : ℝ) (hn0 : 0 < n) :
    0 ≤ (∑ e, (y e - m) * (y e - m)) * (1 / n) :=
  mul_nonneg (Finset.sum_nonneg fun e _ => mul_self_nonneg (y e - m)) (by positivity)

/-- The reciprocal square root of a positive real, read in the extended reals, is the real one. -/
theorem rsqrt_coe_pos {r : ℝ} (hr : 0 < r) :
    Ideal.rsqrt (r : EReal) = (((Real.sqrt r)⁻¹ : ℝ) : EReal) := by
  rw [Ideal.rsqrt_coe, if_neg (not_lt.2 hr.le), if_neg hr.ne']

theorem viaMoments_eq_viaCentred (Y : ι → EReal) (hY : ∀ e, ∃ r : ℝ, Y e = (r : EReal)) (g b : EReal)
    (hg : ∃ r : ℝ, g = (r : EReal)) (hb : ∃ r : ℝ, b = (r : EReal)) (n eps : ℝ)
    (hn : (Fintype.card ι : ℝ) = n) (hn0 : 0 < n) (heps : 0 < eps) (e : ι) :
    viaMoments Y g b (n : EReal) (eps : EReal) e = viaCentred Y g b (n : EReal) (eps : EReal) e := by
  choose y hy using hY
  obtain ⟨gr, rfl⟩ := hg
  obtain ⟨br, rfl⟩ := hb
  have hYf : Y = fun e => (y e : EReal) := funext hy
  subst hYf
  have hn' : n ≠ 0 := ne_of_gt hn0
  unfold viaMoments viaCentred
  simp only [Ideal.div_coe hn', ← EReal.coe_mul, sum_coe_real, ← EReal.coe_sub, ← EReal.coe_add]
  rw [variance_eq y n hn hn0]
  have hpos : 0 < (∑ e, (y e - (∑ e', y e') * (1 / n)) * (y e - (∑ e', y e') * (1 / n))) * (1 / n) + eps :=
    add_pos_of_nonneg_of_pos (variance_nonneg y _ n hn0) heps
  rw [rsqrt_coe_pos hpos]
  simp only [← EReal.coe_mul, ← EReal.coe_sub, ← EReal.coe_add]
  congr 1
  ring

/-- The single-precision word of the count denotes the real 1600000. -/
theorem ofBits_count : Ideal.ofBits .f32 0x49C35000#32 = ((1600000 : ℝ) : EReal) := by
  simp [Ideal.ofBits, Ideal.ieee, -EReal.coe_mul]; norm_num

/-- The single-precision word nearest 1e-5 denotes a positive real. -/
theorem ofBits_eps : ∃ r : ℝ, 0 < r ∧ Ideal.ofBits .f32 0x3727C5AC#32 = (r : EReal) := by
  refine ⟨10995116 * (2 : ℝ) ^ (-40 : Int), by positivity, ?_⟩
  simp [Ideal.ofBits, Ideal.ieee, -EReal.coe_mul]

/-- The single-precision word of 1.0 denotes 1. -/
theorem ofBits_one : Ideal.ofBits .f32 0x3F800000#32 = (1 : EReal) := by
  simp [Ideal.ofBits, Ideal.ieee, -EReal.coe_mul]; norm_num

end Cert.EdgeNorm

end
-- ==== Proof.NormValue.lean ====
/-
  The second region of the kernel: scale, shift and ELU of the convolution's result, entry by entry.

  The region walks the [1600000, 32] array y of convolution results in 100 row blocks of 16000 rows. At each block it
  reads the block of y, the one row of scales and the one row of shifts, computes z = y · scale + shift with the two
  rows broadcast over the block's rows, and writes back z where z > 0 and exp z − 1 elsewhere: ELU of z. This module
  proves that after the region the output array holds, at entry (e, o),

      elu (y(e, o) · scale(0, o) + shift(0, o))

  of the contents the three input arrays have when the region is entered. The steps: the body's payload at one index
  of a block; the block index maps of the four windows, decided over the 100 points (the feature and output windows
  sit at block (t, 0) at point t, the two rows at block (0, 0)); what point t writes back is block t of the whole-array
  function; every row R lies in the block of point R / 16000; hence the array after the run is that function.
-/
import proofs.«136547_j57251914056097_1_alg».proof.Proof.Gen.KernelIdeal.Frame
import proofs.«136547_j57251914056097_1_alg».proof.Proof.Spec
import proofs.«136547_j57251914056097_1_alg».proof.Proof.NormAlgebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm

open Cert.KernelIdeal Cert.KernelIdeal.Gen Idealize.ShloMosaic Idealize.ShloMosaic.TcCoe Idealize.ShloMosaic.ValueIdx Idealize.SL.Sem
open Idealize.ShloMosaic.Pipeline (Dat)
open Cert.EdgeConv (elu)

/-! ## The payload at one index of a block -/

/-- The exponential of a vector, read at an index, is the exponential of the element. -/
theorem exp_apply {s : Shape} (v : FVec Ideal s .f32) (i : s.Idx) : exp v i = Ideal.exp (v i) := rfl

/-- The body's payload at entry (r, o) of a block: with z = x0(r, o) · x1(0, o) + x2(0, o) — the two rows broadcast
    over the block's rows —, the select on z > 0 between z and exp z − 1 is ELU of z. The zero word is the real 0 and
    the word of 1.0 the real 1. -/
theorem payload_apply (x0 : Vec Ideal S16000x32 .f32) (x1 x2 : Vec Ideal S1x32 .f32) (r : Fin 16000) (o : Fin 32) :
    k1_pay1 x0 x1 x2 (ix2 r o) = elu (x0 (ix2 r o) * x1 (ix2 0 o) + x2 (ix2 0 o)) := by
  unfold k1_pay1
  simp only [shapeCast_self]
  rw [select_apply, cmpf_apply, subf_apply, exp_apply, addf_apply, mulf_apply, broadcast_apply, broadcast_apply]
  rw [broadcastTo_1b_ab_apply, broadcastTo_1b_ab_apply]
  change Scalar.select (Ideal.cmp .ogt _ (Ideal.ofBits .f32 0x00000000#32)) _ (_ - Ideal.ofBits .f32 0x3F800000#32) = _
  rw [Ideal.ofBits_zero_f32, Cert.EdgeNorm.ofBits_one]
  generalize x0 (ix2 r o) * x1 (ix2 0 o) + x2 (ix2 0 o) = z
  unfold elu Scalar.select Ideal.cmp
  by_cases h : (0 : EReal) < z
  · simp [h]
  · simp [h]

/-! ## The whole-array function -/

/-- The one row of a [1, 32] array that entry i of a [1600000, 32] array reads: row 0, at i's channel. -/
abbrev rowOf (i : S1600000x32.Idx) : S1x32.Idx := ix2 (0 : Fin 1) (i 1 : Fin 32)

/-- What the output array ends holding: ELU of y · scale + shift, entry by entry, the scale and shift rows read at the
    entry's channel. -/
def G (y : S1600000x32.Idx → EReal) (sc sh : S1x32.Idx → EReal) : S1600000x32.Idx → EReal :=
  fun i => elu (y i * sc (rowOf i) + sh (rowOf i))

/-- G at entry (e, o). -/
theorem G_apply (y : S1600000x32.Idx → EReal) (sc sh : S1x32.Idx → EReal) (e : Fin 1600000) (o : Fin 32) :
    G y sc sh (ix2 e o) = elu (y (ix2 e o) * sc (ix2 0 o) + sh (ix2 0 o)) := rfl

/-! ## The windows' block indices -/

theorem offsets_zero : (![0, 0] : Fin 2 → Nat) = fun _ => 0 := funext fun a => by fin_cases a <;> rfl

/-- The block index maps, decided over the 100 points: at point t the feature window and the output window are at
    block (t, 0); the scale window and the shift window are at block (0, 0). -/
theorem block_index_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val :=
  (by decide +kernel : ∀ t : Fin grid1.N, _)

variable (V : (c : Dev nD) → (b : Ref sig .tc) → Buf (Elt Ideal) ((c : Thread nD τ).loc b))

/-- The three input arrays as the region finds them, each at its shape: the features, the scale row, the shift row. -/
abbrev yIn (c : Dev nD) : S1600000x32.Idx → EReal := V c main_v21_0
abbrev scaleIn (c : Dev nD) : S1x32.Idx → EReal := V c main_v34
abbrev shiftIn (c : Dev nD) : S1x32.Idx → EReal := V c main_v38

/-! ## What one point writes back -/

/-- What point t writes back to the output array is block t of G of the three input arrays as the region finds them:
    entry (r, o) of the feature block is entry (16000 t + r, o) of the array, where the output block's entry (r, o)
    also sits, and entry (0, o) of either row's block is entry (0, o) of the row. -/
theorem written_block_eq (c : Dev nD) (t : Fin cfg1.N) :
    (dat1 (F := Ideal) V c).flushed 3 t
      = ((cfg1.win 3).blk t).view.read (Elt Ideal) (G (V c main_v21_0) (V c main_v34) (V c main_v38)) := by
  show (cfg1.win 3).cut (grid1.coords t) ((dat1 V c).after 3 t) = _
  rw [after1_3]
  unfold out1_3
  rw [View.canon_unit_zero offsets_zero]
  simp only [View.ld_unit_zero (S := S16000x32) offsets_zero, View.ld_unit_zero (S := S1x32) offsets_zero]
  obtain ⟨e0, e1, e2, e3, e4, e5, e6, e7⟩ := block_index_facts t
  funext j
  obtain ⟨r, o, rfl⟩ : ∃ (r : Fin 16000) (o : Fin 32), j = ix2 r o := ⟨j 0, j 1, eq_ix2 j⟩
  show k1_pay1 (iblk1 V c 0 t) (iblk1 V c 1 t) (iblk1 V c 2 t) (ix2 r o)
    = G (V c main_v21_0) (V c main_v34) (V c main_v38) (((cfg1.win 3).blk t).view.emb (ix2 r o))
  rw [payload_apply]
  have h0 : ((cfg1.win 0).blk t).view.emb (ix2 r o) = ((cfg1.win 3).blk t).view.emb (ix2 r o) := by
    funext a; apply Fin.ext
    match a with
    | ⟨0, _⟩ => show win1_0.index t (0 : Fin 2) * 16000 + 1 * r.val = win1_3.index t (0 : Fin 2) * 16000 + 1 * r.val; omega
    | ⟨1, _⟩ => show win1_0.index t (1 : Fin 2) * 32 + 1 * o.val = win1_3.index t (1 : Fin 2) * 32 + 1 * o.val; omega
  have h1 : ((cfg1.win 1).blk t).view.emb (ix2 0 o) = rowOf (((cfg1.win 3).blk t).view.emb (ix2 r o)) := by
    funext a; apply Fin.ext
    match a with
    | ⟨0, _⟩ => show win1_1.index t (0 : Fin 2) * 1 + 1 * 0 = 0; omega
    | ⟨1, _⟩ => show win1_1.index t (1 : Fin 2) * 32 + 1 * o.val = win1_3.index t (1 : Fin 2) * 32 + 1 * o.val; omega
  have h2 : ((cfg1.win 2).blk t).view.emb (ix2 0 o) = rowOf (((cfg1.win 3).blk t).view.emb (ix2 r o)) := by
    funext a; apply Fin.ext
    match a with
    | ⟨0, _⟩ => show win1_2.index t (0 : Fin 2) * 1 + 1 * 0 = 0; omega
    | ⟨1, _⟩ => show win1_2.index t (1 : Fin 2) * 32 + 1 * o.val = win1_3.index t (1 : Fin 2) * 32 + 1 * o.val; omega
  show elu (yIn V c (((cfg1.win 0).blk t).view.emb (ix2 r o)) * scaleIn V c (((cfg1.win 1).blk t).view.emb (ix2 0 o))
        + shiftIn V c (((cfg1.win 2).blk t).view.emb (ix2 0 o)))
    = elu (yIn V c (((cfg1.win 3).blk t).view.emb (ix2 r o)) * scaleIn V c (rowOf (((cfg1.win 3).blk t).view.emb (ix2 r o)))
        + shiftIn V c (rowOf (((cfg1.win 3).blk t).view.emb (ix2 r o))))
  rw [h0, h1, h2]

/-! ## The blocks cover the array -/

/-- An index of the array is in point t's block iff each coordinate is in the block's range on its axis. -/
theorem mem_block_iff (t : Fin cfg1.N) (i : S1600000x32.Idx) :
    i ∈ ((cfg1.win 3).blk t).view.set ↔ ∀ a : Fin 2, win1_3.index t a * S16000x32.size a ≤ (i a).val
      ∧ (i a).val < win1_3.index t a * S16000x32.size a + S16000x32.size a := by
  show i ∈ ((View.whole main_v39).slice (win1_3.rect t)).set ↔ _
  rw [View.set_slice_whole, Rect.mem_set_unit]
  exact Iff.rfl

/-- Every index of the array is in some point's block: row R is in the block of point R / 16000, and every point
    writes its block back. -/
theorem rows_covered (i : S1600000x32.Idx) :
    ∃ t : Fin cfg1.N, (cfg1.win 3).flush t = true ∧ i ∈ ((cfg1.win 3).blk t).view.set := by
  have hi0 : (i 0).val < 1600000 := (i 0).isLt
  have hi1 : (i 1).val < 32 := (i 1).isLt
  obtain ⟨t, ht⟩ : ∃ t : Fin cfg1.N, t.val = (i 0).val / 16000 :=
    ⟨⟨(i 0).val / 16000, by rw [show cfg1.N = 100 from N_1]; omega⟩, rfl⟩
  obtain ⟨e0, e1, e2, e3, e4, e5, e6, e7⟩ := block_index_facts t
  refine ⟨t, flush1_3 t, ?_⟩
  rw [mem_block_iff]
  intro a
  match a with
  | ⟨0, _⟩ =>
    show win1_3.index t (0 : Fin 2) * 16000 ≤ (i 0).val ∧ (i 0).val < win1_3.index t (0 : Fin 2) * 16000 + 16000
    omega
  | ⟨1, _⟩ =>
    show win1_3.index t (1 : Fin 2) * 32 ≤ (i 1).val ∧ (i 1).val < win1_3.index t (1 : Fin 2) * 32 + 32
    omega

/-! ## The array after the run -/

/-- The output array after the run is G of the region-entry contents of the three input arrays. -/
theorem output_eq (c : Dev nD) :
    (dat1 (F := Ideal) V c).arrAt 3 cfg1.N = G (V c main_v21_0) (V c main_v34) (V c main_v38) :=
  (dat1 V c).arrAt_eq_of_cover 3 (G (V c main_v21_0) (V c main_v34) (V c main_v38))
    (fun t _ => written_block_eq V c t) rows_covered

/-- Entry (e, o) of the output array after the run is ELU of y(e, o) · scale(0, o) + shift(0, o), of the contents of
    the three input arrays when the region is entered. -/
theorem final (c : Dev nD) (e : Fin 1600000) (o : Fin 32) :
    ((dat1 (F := Ideal) V c).arrAt 3 cfg1.N : S1600000x32.Idx → EReal) (ix2 e o)
      = elu (yIn V c (ix2 e o) * scaleIn V c (ix2 0 o) + shiftIn V c (ix2 0 o)) := by
  rw [output_eq]
  rfl

end Cert.KernelIdeal.Norm

end
-- ==== Proof.Moments.lean ====
/-
  Between the two regions: the scale row and the shift row of the batch normalisation, from the two moment rows.

  After the first region the program holds, per output channel o, the sum s(o) and the sum of squares q(o) of the
  convolution's column o (two [1, 32] rows), and it is given the gain g(o) and the bias b(o) ([32] vectors). Twenty
  host operations then compute, channel by channel, with count the word of 1600000 and eps the word nearest 1e-5,

      mean  = s / count,        var = q / count − mean · mean,
      scale = g · rsqrt (var + eps),        shift = b − mean · scale,

  each written to a [1, 32] row that the second region reads. This module reads those two rows at entry (0, o), as
  expressions of the contents the four arrays have after the first region. The steps: the operations as three
  functions of arrays (a moment row over the count; the scale vector; the shift vector), each read at an index — a
  reshape between [1, 32] and [32] keeps entry o, a scalar broadcast reads the scalar, the pointwise operations act on
  the entries —; the rows after the twenty operations are the reshapes of the scale and shift vectors, for any contents
  before them; then the instance at the contents after the first region.
-/
import proofs.«136547_j57251914056097_1_alg».proof.Proof.Gen.KernelIdeal.Frame
import proofs.«136547_j57251914056097_1_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.Moments

open Cert.KernelIdeal Cert.KernelIdeal.Gen Idealize.ShloMosaic Idealize.ShloMosaic.TcCoe Idealize.ShloMosaic.ValueIdx Idealize.SL.Sem
open Idealize.ShloMosaic.StableHlo Cert.EdgeConv

/-! ## The host operations between the two regions, as functions of arrays -/

/-- A moment row [1, 32] read as a vector [32] and divided, entry by entry, by the count broadcast from its scalar. -/
def perCount (s : FVec Ideal S1x32 .f32) : FVec Ideal S32 .f32 :=
  Host.divf (shapeCast S32 s shapeCasts_S1x32_S32)
    (broadcastInDim S32 ![] bcast_S_S32 (constant (F := Ideal) S_ .f32 0x49C35000#32))

/-- The scale vector: gain · rsqrt ((sumsq / count − (sum / count) · (sum / count)) + eps). -/
def scaleVec (s q : FVec Ideal S1x32 .f32) (g : FVec Ideal S32 .f32) : FVec Ideal S32 .f32 :=
  mulf g (Host.rsqrt (addf (subf (perCount q) (mulf (perCount s) (perCount s)))
    (broadcastInDim S32 ![] bcast_S_S32 (constant (F := Ideal) S_ .f32 0x3727C5AC#32))))

/-- The shift vector: bias − (sum / count) · scale, the scale read back from its [1, 32] row. -/
def shiftVec (s q : FVec Ideal S1x32 .f32) (g b : FVec Ideal S32 .f32) : FVec Ideal S32 .f32 :=
  subf b (mulf (perCount s)
    (shapeCast S32 (shapeCast S1x32 (scaleVec s q g) shapeCasts_S32_S1x32) shapeCasts_S1x32_S32))

/-- Entry o of a moment row over the count: the row's entry (0, o) divided by the count. -/
theorem perCount_apply (s : FVec Ideal S1x32 .f32) (o : Fin 32) :
    perCount s (ix1 o) = Ideal.div (s (ix2 0 o)) count := by
  unfold perCount
  rw [hostDivf_apply, shapeCast_1a_a_apply, broadcastInDim_scalar_apply]
  rfl

/-- Entry o of the scale vector. -/
theorem scaleVec_apply (s q : FVec Ideal S1x32 .f32) (g : FVec Ideal S32 .f32) (o : Fin 32) :
    scaleVec s q g (ix1 o)
      = g (ix1 o) * Ideal.rsqrt ((Ideal.div (q (ix2 0 o)) count
          - Ideal.div (s (ix2 0 o)) count * Ideal.div (s (ix2 0 o)) count) + eps) := by
  unfold scaleVec
  rw [mulf_apply]
  show g (ix1 o) * Ideal.rsqrt (addf (subf (perCount q) (mulf (perCount s) (perCount s)))
    (broadcastInDim S32 ![] bcast_S_S32 (constant (F := Ideal) S_ .f32 0x3727C5AC#32)) (ix1 o)) = _
  rw [addf_apply, subf_apply, mulf_apply, perCount_apply, perCount_apply, broadcastInDim_scalar_apply]
  rfl

/-- Entry o of the shift vector: the scale, written to its row and read back, is the scale vector's entry o. -/
theorem shiftVec_apply (s q : FVec Ideal S1x32 .f32) (g b : FVec Ideal S32 .f32) (o : Fin 32) :
    shiftVec s q g b (ix1 o)
      = b (ix1 o) - Ideal.div (s (ix2 0 o)) count * (g (ix1 o) * Ideal.rsqrt ((Ideal.div (q (ix2 0 o)) count
          - Ideal.div (s (ix2 0 o)) count * Ideal.div (s (ix2 0 o)) count) + eps)) := by
  unfold shiftVec
  rw [subf_apply, mulf_apply, perCount_apply, shapeCast_1a_a_apply, shapeCast_a_1a_apply, scaleVec_apply]

/-! ## The two rows after the twenty operations, from any contents before them -/

section General
variable (W : Valuation τ sig (Elt Ideal))

/-- The four arrays the operations read, each at its shape. -/
abbrev sumOf : S1x32.Idx → EReal := W (Proc.devRef .tc main_v21_1)
abbrev sqOf : S1x32.Idx → EReal := W (Proc.devRef .tc main_v21_2)
abbrev gainOf : S32.Idx → EReal := W (Proc.devRef .tc main_arg3)
abbrev biasOf : S32.Idx → EReal := W (Proc.devRef .tc main_arg4)

/-- The scale row after the operations is the scale vector as a [1, 32] row. -/
theorem scale_array :
    StableHlo.after hostOps1 W (Proc.devRef .tc main_v34)
      = shapeCast S1x32 (scaleVec (W (Proc.devRef .tc main_v21_1)) (W (Proc.devRef .tc main_v21_2))
          (W (Proc.devRef .tc main_arg3))) shapeCasts_S32_S1x32 := by
  after_results
  rfl

/-- The shift row after the operations is the shift vector as a [1, 32] row. -/
theorem shift_array :
    StableHlo.after hostOps1 W (Proc.devRef .tc main_v38)
      = shapeCast S1x32 (shiftVec (W (Proc.devRef .tc main_v21_1)) (W (Proc.devRef .tc main_v21_2))
          (W (Proc.devRef .tc main_arg3)) (W (Proc.devRef .tc main_arg4))) shapeCasts_S32_S1x32 := by
  after_results_simp
  rfl

/-- The scale row at entry (0, o). -/
theorem scale_of (o : Fin 32) :
    (StableHlo.after hostOps1 W (Proc.devRef .tc main_v34) : S1x32.Idx → EReal) (ix2 (0 : Fin 1) o)
      = gainOf W (ix1 o) * Ideal.rsqrt ((Ideal.div (sqOf W (ix2 0 o)) count
          - Ideal.div (sumOf W (ix2 0 o)) count * Ideal.div (sumOf W (ix2 0 o)) count) + eps) := by
  rw [scale_array]
  exact (shapeCast_a_1a_apply _ _ 0 o).trans (scaleVec_apply _ _ _ o)

/-- The shift row at entry (0, o). -/
theorem shift_of (o : Fin 32) :
    (StableHlo.after hostOps1 W (Proc.devRef .tc main_v38) : S1x32.Idx → EReal) (ix2 (0 : Fin 1) o)
      = biasOf W (ix1 o) - Ideal.div (sumOf W (ix2 0 o)) count * (gainOf W (ix1 o) * Ideal.rsqrt ((Ideal.div (sqOf W (ix2 0 o)) count
          - Ideal.div (sumOf W (ix2 0 o)) count * Ideal.div (sumOf W (ix2 0 o)) count) + eps)) := by
  rw [shift_array]
  exact (shapeCast_a_1a_apply _ _ 0 o).trans (shiftVec_apply _ _ _ _ o)

end General

/-! ## At the contents after the first region -/

variable (m : (ℓ : Loc nD τ sig) → Buf (Elt Ideal) ℓ) (ρ : Dev nD → PrngReg)

/-- The four arrays after the first region, each at its shape: the sum row, the sum-of-squares row, the gain, the bias. -/
abbrev sumIn (c : Dev nD) : S1x32.Idx → EReal := W2 m ρ c (Proc.devRef .tc main_v21_1)
abbrev sqIn (c : Dev nD) : S1x32.Idx → EReal := W2 m ρ c (Proc.devRef .tc main_v21_2)
abbrev gainIn (c : Dev nD) : S32.Idx → EReal := W2 m ρ c (Proc.devRef .tc main_arg3)
abbrev biasIn (c : Dev nD) : S32.Idx → EReal := W2 m ρ c (Proc.devRef .tc main_arg4)

/-- The scale row the second region finds, at entry (0, o). -/
theorem scale_apply (c : Dev nD) (o : Fin 32) :
    (W3 m ρ c (Proc.devRef .tc main_v34) : S1x32.Idx → EReal) (ix2 (0 : Fin 1) o)
      = gainIn m ρ c (ix1 o) * Ideal.rsqrt ((Ideal.div (sqIn m ρ c (ix2 0 o)) count
          - Ideal.div (sumIn m ρ c (ix2 0 o)) count * Ideal.div (sumIn m ρ c (ix2 0 o)) count) + eps) :=
  scale_of (W2 m ρ c) o

/-- The shift row the second region finds, at entry (0, o). -/
theorem shift_apply (c : Dev nD) (o : Fin 32) :
    (W3 m ρ c (Proc.devRef .tc main_v38) : S1x32.Idx → EReal) (ix2 (0 : Fin 1) o)
      = biasIn m ρ c (ix1 o) - Ideal.div (sumIn m ρ c (ix2 0 o)) count * (gainIn m ρ c (ix1 o) * Ideal.rsqrt ((Ideal.div (sqIn m ρ c (ix2 0 o)) count
          - Ideal.div (sumIn m ρ c (ix2 0 o)) count * Ideal.div (sumIn m ρ c (ix2 0 o)) count) + eps)) :=
  shift_of (W2 m ρ c) o

end Cert.KernelIdeal.Moments

end
-- ==== Proof.Glue.lean ====
/-
  The kernel program's host operations, read against the reference's stages.

  The kernel program is the reference's own prefix of host operations (reshape, slice, gather, transpose), two
  regions with a stretch of per-channel arithmetic between them, and the reference's own tail (the accumulating
  scatter of the activated rows back to the nodes, a reshape and a broadcast). This module reads the buffers at the
  region boundaries: what the first region finds is what the reference's stages name; a buffer no later operation or
  region writes keeps its contents; and the tail is one function of the index words and the activated rows, the same
  function in both programs.
-/
import proofs.«136547_j57251914056097_1_alg».proof.Proof.Gen.KernelIdeal.Frame
import proofs.«136547_j57251914056097_1_alg».proof.Proof.Gen.ReferenceIdeal.Read
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- What the first region finds as the source index words is the reference's stage of that name. -/
theorem entry_v3 (c : Dev nD) :
    (W1 m ρ c (Proc.devRef .tc main_v3) : Cert.ReferenceIdeal.S1600000.Idx → BitVec 32)
      = Cert.ReferenceIdeal.Read.val_main_v3 (F := Ideal) (m ((c : Thread nD τ).loc main_arg1)) := by
  show StableHlo.after hostOps0 (W0 m ρ c) (Proc.devRef .tc main_v3) = _
  after_results
  rfl

/-- What the first region finds as the transposed weight is the reference's transposed weight. -/
theorem entry_v20 (c : Dev nD) :
    (W1 m ρ c (Proc.devRef .tc main_v20) : Cert.ReferenceIdeal.S64x32.Idx → EReal)
      = Cert.ReferenceIdeal.Read.val_main_v22 (F := Ideal) (m ((c : Thread nD τ).loc main_arg2)) := by
  show StableHlo.after hostOps0 (W0 m ρ c) (Proc.devRef .tc main_v20) = _
  after_results
  rfl

/-- What the first region finds as the gathered source rows is the reference's stage of that name. -/
theorem entry_v12 (c : Dev nD) :
    (W1 m ρ c (Proc.devRef .tc main_v12) : Cert.ReferenceIdeal.S1600000x32.Idx → EReal)
      = Cert.ReferenceIdeal.Read.val_main_v12 (F := Ideal) (m ((c : Thread nD τ).loc main_arg0))
          (m ((c : Thread nD τ).loc main_arg1)) := by
  show StableHlo.after hostOps0 (W0 m ρ c) (Proc.devRef .tc main_v12) = _
  after_results
  rfl

/-- What the first region finds as the gathered target rows is the reference's stage of that name. -/
theorem entry_v19 (c : Dev nD) :
    (W1 m ρ c (Proc.devRef .tc main_v19) : Cert.ReferenceIdeal.S1600000x32.Idx → EReal)
      = Cert.ReferenceIdeal.Read.val_main_v19 (F := Ideal) (m ((c : Thread nD τ).loc main_arg0))
          (m ((c : Thread nD τ).loc main_arg1)) := by
  show StableHlo.after hostOps0 (W0 m ρ c) (Proc.devRef .tc main_v19) = _
  after_results_simp
  rfl

/-- The source index words are written once, before the first region: they reach the tail as the first region found them. -/
theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- The first region's first output is not written by the arithmetic between the regions. -/
theorem W3_v21_0 (c : Dev nD) : W3 m ρ c (Proc.devRef .tc main_v21_0) = W2 m ρ c (Proc.devRef .tc main_v21_0) :=
  StableHlo.after_of_forall_not_mem (b := Proc.devRef .tc main_v21_0) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))

/-- The gain is as launched when the first region ends. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg3) := rfl

/-- The shift is as launched when the first region ends. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg4) := rfl

/-- The tail both programs end with: every activated row is added into the node its index word names (a negative word
    first moved up by the number of nodes), starting from zeros, and the [100000, 32] result is laid out as
    [1, 32, 100000, 1]. -/
def tail (idx : Cert.ReferenceIdeal.S1600000.Idx → BitVec 32) (u : Cert.ReferenceIdeal.S1600000x32.Idx → EReal) : Cert.ReferenceIdeal.S1x32x100000x1.Idx → EReal :=
  broadcastInDim Cert.ReferenceIdeal.S1x32x100000x1 ![0, 1, 2] Cert.ReferenceIdeal.Gen.bcast_S1x32x100000_S1x32x100000x1_0_1_2
    (shapeCast _
      (Host.scatterAdd (F := Ideal) Cert.ReferenceIdeal.scatter_S100000x32_S1600000x1_S1600000x32_1_0_0_1
        (broadcastInDim Cert.ReferenceIdeal.S100000x32 ![] Cert.ReferenceIdeal.Gen.bcast_S_S100000x32 (constant (F := Ideal) Cert.ReferenceIdeal.S_ .f32 0x00000000#32))
        (broadcastInDim Cert.ReferenceIdeal.S1600000x1 ![0] Cert.ReferenceIdeal.Gen.bcast_S1600000_S1600000x1_0
          (select (cmpi .slt idx (broadcastInDim Cert.ReferenceIdeal.S1600000 ![] Cert.ReferenceIdeal.Gen.bcast_S_S1600000 (constantI Cert.ReferenceIdeal.S_ 32 0#32)))
            (addi idx (broadcastInDim Cert.ReferenceIdeal.S1600000 ![] Cert.ReferenceIdeal.Gen.bcast_S_S1600000 (constantI Cert.ReferenceIdeal.S_ 32 100000#32)))
            idx))
        u)
      Cert.ReferenceIdeal.Gen.shapeCasts_S100000x32_S1x32x100000)

/-- The reference's result is the tail of its source index words and its activated rows. -/
theorem ref_tail (x0 : (⟨Cert.ReferenceIdeal.S1x32x100000x1, .f32⟩ : BufTy).Contents (Elt Ideal))
    (x1 : (⟨Cert.ReferenceIdeal.S2x1600000, .i32⟩ : BufTy).Contents (Elt Ideal))
    (x2 : (⟨Cert.ReferenceIdeal.S32x64, .f32⟩ : BufTy).Contents (Elt Ideal))
    (x3 x4 : (⟨Cert.ReferenceIdeal.S32, .f32⟩ : BufTy).Contents (Elt Ideal)) :
    Cert.ReferenceIdeal.Read.val_main_v62 (F := Ideal) x0 x1 x2 x3 x4
      = tail (Cert.ReferenceIdeal.Read.val_main_v3 (F := Ideal) x1) (Cert.ReferenceIdeal.Read.val_main_v52 (F := Ideal) x0 x1 x2 x3 x4) := rfl

/-- The kernel program's result is the tail of the source index words and the second region's output, as they stand
    when the second region ends. -/
theorem kernel_tail (c : Dev nD) :
    (W5 m ρ c (Proc.devRef .tc main_v49) : Cert.ReferenceIdeal.S1x32x100000x1.Idx → EReal)
      = tail (W4 m ρ c (Proc.devRef .tc main_v3)) (W4 m ρ c (Proc.devRef .tc main_v39)) := by
  show StableHlo.after hostOps2 (W4 m ρ c) (Proc.devRef .tc main_v49) = _
  generalize W4 m ρ c = W
  after_results
  rfl

end Cert.KernelIdeal.Glue

end
-- ==== Proof.RefValue.lean ====
/-
  The reference's activated edge features, entry by entry.

  The reference gathers the source and target rows of every edge, joins each source row with the difference of the
  two rows into 64 numbers, multiplies by the transposed weight, normalises every output channel over all edges from
  the centred values (mean, then the mean of the squared deviations), applies the gain and the shift, and ends with
  ELU. Read one operation at a time at the entry (e, o), this is the specification's centred form.
-/
import proofs.«136547_j57251914056097_1_alg».proof.Proof.Gen.ReferenceIdeal.Read
import proofs.«136547_j57251914056097_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.EdgeConv Cert.EdgeNorm

/-- Entry (e, k) of the joined rows: the source row's entry k for k < 32, else entry k − 32 of target − source. -/
theorem v21_at (x0 : (⟨S1x32x100000x1, .f32⟩ : BufTy).Contents (Elt Ideal)) (x1 : (⟨S2x1600000, .i32⟩ : BufTy).Contents (Elt Ideal)) (e : Fin 1600000) (k : Fin 64) :
    Read.val_main_v21 (F := Ideal) x0 x1 (ix2 e k)
      = feat (Read.val_main_v12 (F := Ideal) x0 x1) (Read.val_main_v19 (F := Ideal) x0 x1) e k := by
  unfold Read.val_main_v21 feat
  by_cases h : k.val < 32
  · rw [dif_pos h]
    exact concatenate_pair_apply_left (s₁ := S1600000x32) (s₂ := S1600000x32) (1 : Fin 2) _ _ _ (ix2 e k) rfl (ix2 e (⟨k.val, h⟩ : Fin 32))
      (fun b => match b with | ⟨0, _⟩ => rfl | ⟨1, _⟩ => rfl)
  · rw [dif_neg h]
    have hk : k.val - 32 < 32 := by have := k.isLt; omega
    rw [concatenate_pair_apply_right (s₁ := S1600000x32) (s₂ := S1600000x32) (1 : Fin 2) _ _ _ (ix2 e k) rfl rfl (ix2 e (⟨k.val - 32, hk⟩ : Fin 32))
      (fun b hb => match b, hb with | ⟨0, _⟩, _ => rfl | ⟨1, _⟩, hb => absurd rfl hb)
      (by show k.val - 32 + 32 = k.val; omega)]
    rfl

/-- The left operand's index of the product's k-th term at (e, o) is (e, k). -/
theorem lidx_v23 (e : Fin 1600000) (o : Fin 32) (k : Fin 64) : lidx_main_v23 (ix2 e o) k = ix2 e k := by
  funext a; match a with | ⟨0, _⟩ => rfl | ⟨1, _⟩ => rfl

/-- The right operand's index of the product's k-th term at (e, o) is (k, o). -/
theorem ridx_v23 (e : Fin 1600000) (o : Fin 32) (k : Fin 64) : ridx_main_v23 (ix2 e o) k = ix2 k o := by
  funext a; match a with | ⟨0, _⟩ => rfl | ⟨1, _⟩ => rfl

/-- Entry (e, o) of the product is the convolution of edge e at channel o. -/
theorem v23_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (e : Fin 1600000) (o : Fin 32) :
    Read.val_main_v23 (F := Ideal) x0 x1 x2 (ix2 e o) = conv (Read.val_main_v12 (F := Ideal) x0 x1) (Read.val_main_v19 (F := Ideal) x0 x1) (Read.val_main_v22 (F := Ideal) x2) e o := by
  rw [val_main_v23_apply]
  unfold conv
  refine Finset.sum_congr rfl fun k _ => ?_
  rw [lidx_v23, ridx_v23, v21_at]

/-- The index of the k-th term of a sum over the edges at channel o is (k, o). -/
theorem idx_v24 (o : Fin 32) (k : Fin 1600000) : idx_main_v24 (ix1 o) k = ix2 k o := by
  funext a; match a with | ⟨0, _⟩ => rfl | ⟨1, _⟩ => rfl

/-- The same index, as the second sum names it. -/
theorem idx_v31 (o : Fin 32) (k : Fin 1600000) : idx_main_v31 (ix1 o) k = ix2 k o := by
  funext a; match a with | ⟨0, _⟩ => rfl | ⟨1, _⟩ => rfl

/-- Channel o's mean: the sum of the convolutions over the edges, divided by the count. -/
theorem v26_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (o : Fin 32) :
    Read.val_main_v26 (F := Ideal) x0 x1 x2 (ix1 o) = (Ideal.div (∑ e' : Fin 1600000, conv (Read.val_main_v12 (F := Ideal) x0 x1) (Read.val_main_v19 (F := Ideal) x0 x1) (Read.val_main_v22 (F := Ideal) x2) e' o) count) := by
  rw [val_main_v26_apply, val_main_v24_apply, val_main_v25_apply, val_main_cst_3_apply, val_main_cst_apply]
  simp only [Ideal.hostDivf_def, Ideal.ofBits_def, Ideal.ofBits_zero_f32, zero_add, idx_v24, v23_at]

/-- The mean repeated over the edges (for the deviations that are squared). -/
theorem v28_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (e : Fin 1600000) (o : Fin 32) :
    Read.val_main_v28 (F := Ideal) x0 x1 x2 (ix2 e o) = Read.val_main_v26 (F := Ideal) x0 x1 x2 (ix1 o) := by
  rw [val_main_v28_apply, val_main_v27_apply]
  have hi : idx_main_v27 (idx_main_v28 (ix2 e o)) = ix1 o := funext fun a => match a with | ⟨0, _⟩ => rfl
  rw [hi]

/-- The mean repeated over the edges (for the deviations that are scaled). -/
theorem v35_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (e : Fin 1600000) (o : Fin 32) :
    Read.val_main_v35 (F := Ideal) x0 x1 x2 (ix2 e o) = Read.val_main_v26 (F := Ideal) x0 x1 x2 (ix1 o) := by
  rw [val_main_v35_apply, val_main_v34_apply]
  have hi : idx_main_v34 (idx_main_v35 (ix2 e o)) = ix1 o := funext fun a => match a with | ⟨0, _⟩ => rfl
  rw [hi]

/-- The deviation of entry (e, o) from channel o's mean (the copy that is squared). -/
theorem v29_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (e : Fin 1600000) (o : Fin 32) :
    Read.val_main_v29 (F := Ideal) x0 x1 x2 (ix2 e o) = conv (Read.val_main_v12 (F := Ideal) x0 x1) (Read.val_main_v19 (F := Ideal) x0 x1) (Read.val_main_v22 (F := Ideal) x2) e o - (Ideal.div (∑ e' : Fin 1600000, conv (Read.val_main_v12 (F := Ideal) x0 x1) (Read.val_main_v19 (F := Ideal) x0 x1) (Read.val_main_v22 (F := Ideal) x2) e' o) count) := by
  rw [val_main_v29_apply, Ideal.subf_def, v23_at, v28_at, v26_at]

/-- The deviation of entry (e, o) from channel o's mean (the copy that is scaled). -/
theorem v36_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (e : Fin 1600000) (o : Fin 32) :
    Read.val_main_v36 (F := Ideal) x0 x1 x2 (ix2 e o) = conv (Read.val_main_v12 (F := Ideal) x0 x1) (Read.val_main_v19 (F := Ideal) x0 x1) (Read.val_main_v22 (F := Ideal) x2) e o - (Ideal.div (∑ e' : Fin 1600000, conv (Read.val_main_v12 (F := Ideal) x0 x1) (Read.val_main_v19 (F := Ideal) x0 x1) (Read.val_main_v22 (F := Ideal) x2) e' o) count) := by
  rw [val_main_v36_apply, Ideal.subf_def, v23_at, v35_at, v26_at]

/-- Channel o's variance: the sum of the squared deviations over the edges, divided by the count. -/
theorem v33_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (o : Fin 32) :
    Read.val_main_v33 (F := Ideal) x0 x1 x2 (ix1 o) = (Ideal.div (∑ e' : Fin 1600000, (conv (Read.val_main_v12 (F := Ideal) x0 x1) (Read.val_main_v19 (F := Ideal) x0 x1) (Read.val_main_v22 (F := Ideal) x2) e' o - (Ideal.div (∑ e' : Fin 1600000, conv (Read.val_main_v12 (F := Ideal) x0 x1) (Read.val_main_v19 (F := Ideal) x0 x1) (Read.val_main_v22 (F := Ideal) x2) e' o) count)) * (conv (Read.val_main_v12 (F := Ideal) x0 x1) (Read.val_main_v19 (F := Ideal) x0 x1) (Read.val_main_v22 (F := Ideal) x2) e' o - (Ideal.div (∑ e' : Fin 1600000, conv (Read.val_main_v12 (F := Ideal) x0 x1) (Read.val_main_v19 (F := Ideal) x0 x1) (Read.val_main_v22 (F := Ideal) x2) e' o) count))) count) := by
  rw [val_main_v33_apply, val_main_v31_apply, val_main_v32_apply, val_main_cst_5_apply, val_main_cst_4_apply]
  simp only [Ideal.hostDivf_def, Ideal.ofBits_def, Ideal.ofBits_zero_f32, zero_add, idx_v31, val_main_v30_apply,
    Ideal.mulf_def, v29_at]

/-- Channel o's scale: the reciprocal square root of the variance plus eps. -/
theorem v39_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (o : Fin 32) :
    Read.val_main_v39 (F := Ideal) x0 x1 x2 (ix1 o) = Ideal.rsqrt ((Ideal.div (∑ e' : Fin 1600000, (conv (Read.val_main_v12 (F := Ideal) x0 x1) (Read.val_main_v19 (F := Ideal) x0 x1) (Read.val_main_v22 (F := Ideal) x2) e' o - (Ideal.div (∑ e' : Fin 1600000, conv (Read.val_main_v12 (F := Ideal) x0 x1) (Read.val_main_v19 (F := Ideal) x0 x1) (Read.val_main_v22 (F := Ideal) x2) e' o) count)) * (conv (Read.val_main_v12 (F := Ideal) x0 x1) (Read.val_main_v19 (F := Ideal) x0 x1) (Read.val_main_v22 (F := Ideal) x2) e' o - (Ideal.div (∑ e' : Fin 1600000, conv (Read.val_main_v12 (F := Ideal) x0 x1) (Read.val_main_v19 (F := Ideal) x0 x1) (Read.val_main_v22 (F := Ideal) x2) e' o) count))) count) + eps) := by
  rw [val_main_v39_apply, val_main_v38_apply, val_main_v37_apply, val_main_cst_6_apply, v33_at]
  simp only [Ideal.hostUnary_rsqrt_def, Ideal.addf_def, Ideal.ofBits_def]

/-- The scale repeated over the edges. -/
theorem v41_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (e : Fin 1600000) (o : Fin 32) :
    Read.val_main_v41 (F := Ideal) x0 x1 x2 (ix2 e o) = Read.val_main_v39 (F := Ideal) x0 x1 x2 (ix1 o) := by
  rw [val_main_v41_apply, val_main_v40_apply]
  have hi : idx_main_v40 (idx_main_v41 (ix2 e o)) = ix1 o := funext fun a => match a with | ⟨0, _⟩ => rfl
  rw [hi]

/-- The gain repeated over the edges. -/
theorem v44_at (x3 : (⟨S32, .f32⟩ : BufTy).Contents (Elt Ideal)) (e : Fin 1600000) (o : Fin 32) :
    Read.val_main_v44 (F := Ideal) x3 (ix2 e o) = x3 (ix1 o) := by
  rw [val_main_v44_apply, val_main_v43_apply]
  have hi : idx_main_v43 (idx_main_v44 (ix2 e o)) = ix1 o := funext fun a => match a with | ⟨0, _⟩ => rfl
  rw [hi]

/-- The shift repeated over the edges. -/
theorem v47_at (x4 : (⟨S32, .f32⟩ : BufTy).Contents (Elt Ideal)) (e : Fin 1600000) (o : Fin 32) :
    Read.val_main_v47 (F := Ideal) x4 (ix2 e o) = x4 (ix1 o) := by
  rw [val_main_v47_apply, val_main_v46_apply]
  have hi : idx_main_v46 (idx_main_v47 (ix2 e o)) = ix1 o := funext fun a => match a with | ⟨0, _⟩ => rfl
  rw [hi]

/-- The normalised entry (e, o): the centred form of the batch normalisation of channel o. -/
theorem v48_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (x3 x4 : (⟨S32, .f32⟩ : BufTy).Contents (Elt Ideal)) (e : Fin 1600000) (o : Fin 32) :
    Read.val_main_v48 (F := Ideal) x0 x1 x2 x3 x4 (ix2 e o)
      = viaCentred (fun e' : Fin 1600000 => conv (Read.val_main_v12 (F := Ideal) x0 x1) (Read.val_main_v19 (F := Ideal) x0 x1) (Read.val_main_v22 (F := Ideal) x2) e' o) (x3 (ix1 o)) (x4 (ix1 o)) count eps e := by
  rw [val_main_v48_apply, val_main_v45_apply, val_main_v42_apply, v36_at, v41_at, v39_at, v44_at, v47_at]
  simp only [Ideal.addf_def, Ideal.mulf_def]
  rfl

/-- Choosing z where z > 0 and exp z − 1 elsewhere is ELU (the zero compared with is the f32 word 0). -/
theorem select_elu (z : EReal) :
    Scalar.select (Ideal.cmp .ogt z (Ideal.ofBits .f32 0x00000000#32)) z (Ideal.exp z - 1) = elu z := by
  rw [Ideal.ofBits_zero_f32]
  unfold elu
  by_cases h : (0 : EReal) < z
  · have hc : Ideal.cmp .ogt z 0 = 1#1 := by
      show BitVec.ofBool (decide ((0 : EReal) < z)) = 1#1
      rw [decide_eq_true h]; rfl
    rw [if_pos h, hc]
    exact select_one _ _
  · have hc : Ideal.cmp .ogt z 0 = 0#1 := by
      show BitVec.ofBool (decide ((0 : EReal) < z)) = 0#1
      rw [decide_eq_false h]; rfl
    rw [if_neg h, hc]
    exact select_zero _ _

/-- Entry (e, o) of the reference's activated edge features is the specification's centred form, as a function of the
    gathered source and target rows, the transposed weight, the gain and the shift. -/
theorem val_main_v52_at (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (x3 x4 : (⟨S32, .f32⟩ : BufTy).Contents (Elt Ideal)) (e : Fin 1600000) (o : Fin 32) :
    Read.val_main_v52 (F := Ideal) x0 x1 x2 x3 x4 (ix2 e o)
      = Cert.EdgeConv.outCentred (Read.val_main_v12 (F := Ideal) x0 x1) (Read.val_main_v19 (F := Ideal) x0 x1) (Read.val_main_v22 (F := Ideal) x2) x3 x4 e o := by
  rw [val_main_v52_apply, val_main_v50_apply, val_main_v51_apply, val_main_v49_apply, val_main_cst_7_apply, v48_at]
  simp only [Ideal.cmpf_def, Ideal.hostUnary_expm1_def, Ideal.ofBits_def]
  unfold outCentred
  exact select_elu _

end Cert.ReferenceIdeal.RefValue

end
-- ==== Proof.LibIndexedRows.lean ====
/-
  Rows picked out of a matrix, and rows added into a matrix, through a column of index words.

  `x[idx]` for a matrix `x : [N, C]` (or a vector `x : [N]`) and a column of index words `idx : [E, 1]` lowers to a
  `gather` whose result row `e` is the row of `x` named by the word `idx[e, 0]`, read as a signed integer and clamped into
  `[0, N - 1]`. The accumulating `scatter` that `segment_sum` lowers to adds update row `e` into the row of the operand
  named by `idx[e, 0]`, read as a signed integer and NOT clamped: an update whose word is outside `[0, N)` is dropped.
  So an update that lands on row `j` has index word exactly `j`.
-/
import Idealize.ShloMosaic.PureOps.Ideal
import Idealize.ShloMosaic.Lib.ValueIdx

noncomputable section

namespace Cert.Lib

open Idealize.ShloMosaic Idealize.ShloMosaic.ValueIdx

section Gather
variable {α : Type}

/-- The dimension numbers of "row `idx[e, 0]` of an `[N, C]` matrix, for each `e`". -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a word names in an array of `N` rows: the word read signed, clamped into `[0, N - 1]`. -/
def clampRow (N : Nat) (hN : 0 < N) {w : Nat} (b : BitVec w) : Fin N := ⟨min b.toInt.toNat (N - 1), by omega⟩

theorem rows_coord0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 0 + (rowsDims N E C wf).batchCoord (ix2 e c) 0
      + (rowsDims N E C wf).offCoord (ix2 e c) 0 = min (idx (ix2 e 0)).toInt.toNat (N - 1) := by
  have hm : (0 : Fin 2) ∈ (rowsDims N E C wf).startIndexMap := by simp
  rw [GatherDims.batchCoord_eq_zero _ _ _ List.not_mem_nil,
    GatherDims.offCoord_eq_zero _ _ _ (fun h => ((GatherDims.mem_sKept _ _).mp h).1 (by simp))]
  simp only [Nat.add_zero]
  unfold GatherDims.start
  rw [dif_pos hm]
  have hsi : (rowsDims N E C wf).siIdx (ix2 e c) ⟨List.idxOf (0 : Fin 2) (rowsDims N E C wf).startIndexMap,
      List.idxOf_lt_length_iff.2 hm⟩ = ix2 e 0 := by
    funext b; refine Fin.ext ?_
    match b with
    | ⟨0, _⟩ => rfl
    | ⟨1, _⟩ => rfl
  rw [hsi]
  rfl

theorem rows_coord1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowsDims N E C wf).start (ix2 e c) idx 1 + (rowsDims N E C wf).batchCoord (ix2 e c) 1
      + (rowsDims N E C wf).offCoord (ix2 e c) 1 = c.val := by
  have hm : (1 : Fin 2) ∉ (rowsDims N E C wf).startIndexMap := by simp
  have hk : (1 : Fin 2) ∈ (rowsDims N E C wf).sKept := (GatherDims.mem_sKept _ _).mpr ⟨by simp, List.not_mem_nil⟩
  rw [GatherDims.batchCoord_eq_zero _ _ _ List.not_mem_nil]
  unfold GatherDims.start
  rw [dif_neg hm]
  unfold GatherDims.offCoord
  rw [dif_pos hk]
  simp only [Nat.zero_add, Nat.add_zero]
  rfl

/-- The gather at `(e, c)`: the matrix at row `idx[e, 0]` (signed, clamped) and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e 0))) c) := by
  unfold Host.gather
  congr 1
  funext a
  refine Fin.ext ?_
  match a with
  | ⟨0, _⟩ => exact rows_coord0 wf idx e c
  | ⟨1, _⟩ => exact rows_coord1 wf idx e c

/-- The dimension numbers of "entry `idx[e, 0]` of an `[N]` vector, for each `e`". -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at `e`: the vector at entry `idx[e, 0]` (signed, clamped). -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e 0)))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  have hm : (0 : Fin 1) ∈ (entriesDims N E wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos hm]
  have hsi : (entriesDims N E wf).siIdx (ix1 e) ⟨List.idxOf (0 : Fin 1) (entriesDims N E wf).startIndexMap,
      List.idxOf_lt_length_iff.2 hm⟩ = ix2 e 0 := by
    funext b; refine Fin.ext ?_
    match b with
    | ⟨0, _⟩ => rfl
    | ⟨1, _⟩ => rfl
  rw [hsi]
  rfl

end Gather

section Scatter

/-- The dimension numbers of "add update row `e` into operand row `idx[e, 0]`". -/
abbrev addRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update that lands on row `j` has index word `j`: the word is read signed and is not clamped. -/
theorem addRows_hit {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e 0)).toInt = ((i 0).val : Int) := by
  unfold ScatterDims.resultIdx? at h
  split at h
  · rename_i hb
    have hi := congrFun (Option.some.inj h) 0
    have hv : ((addRowsDims N E C wf).start (ix2 e c) idx 0 + (addRowsDims N E C wf).window (ix2 e c) 0).toNat = (i 0).val :=
      congrArg Fin.val hi
    have hpos := (hb 0).1
    have hm : (0 : Fin 2) ∈ (addRowsDims N E C wf).scatterDimsToOperandDims := by simp
    have hw : (addRowsDims N E C wf).window (ix2 e c) 0 = 0 := by
      unfold ScatterDims.window
      rw [dif_neg]
      simp [ScatterDims.sKept, Shape.kept]
    have hs : (addRowsDims N E C wf).start (ix2 e c) idx 0 = (idx (ix2 e 0)).toInt := by
      unfold ScatterDims.start
      rw [dif_pos hm]
      have hsi : (addRowsDims N E C wf).siIdx (ix2 e c) ⟨List.idxOf (0 : Fin 2) (addRowsDims N E C wf).scatterDimsToOperandDims,
          List.idxOf_lt_length_iff.2 hm⟩ = ix2 e 0 := by
        funext b; refine Fin.ext ?_
        match b with
        | ⟨0, _⟩ => rfl
        | ⟨1, _⟩ => rfl
      rw [hsi]
    rw [hw, hs] at hv hpos
    simp only [Nat.cast_zero, add_zero] at hv hpos
    omega
  · exact absurd h (by simp)

end Scatter

end Cert.Lib

end
-- ==== Proof.SpecAgree.lean ====
/-
  The two specifications agree on real inputs.

  When every entry of the node features, of the weight, of the gain and of the shift is a real number, so is every
  gathered row entry (a gather copies entries), every entry of the transposed weight, every entry of an edge's
  feature vector (a copied entry or a difference of two), and every convolution (a finite sum of products). On a
  family of real numbers the batch normalisation from the two moments is the one from the centred values, with the
  count 1600000 and the positive eps both programs use; ELU is applied to the same number on both sides.
-/
import proofs.«136547_j57251914056097_1_alg».proof.Proof.Gen.ReferenceIdeal.Read
import proofs.«136547_j57251914056097_1_alg».proof.Proof.Spec
import proofs.«136547_j57251914056097_1_alg».proof.Proof.NormAlgebra
import proofs.«136547_j57251914056097_1_alg».proof.Proof.LibIndexedRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.SpecAgree

open Cert.ReferenceIdeal Cert.ReferenceIdeal.Gen Cert.ReferenceIdeal.Read Idealize.ShloMosaic Idealize.ShloMosaic.ValueIdx Cert.EdgeConv Cert.EdgeNorm

/-- Every entry of the node features, laid out as one row of 32 per node, is a real number. -/
theorem v1_real (x0 : (⟨S1x32x100000x1, .f32⟩ : BufTy).Contents (Elt Ideal))
    (h0 : ∀ i, ∃ r : ℝ, x0 i = (r : EReal)) (i : S100000x32.Idx) :
    ∃ r : ℝ, Read.val_main_v1 (F := Ideal) x0 i = (r : EReal) := by
  rw [val_main_v1_apply, val_main_v0_apply]
  exact h0 _

/-- Every entry of the gathered source rows is an entry of the node features, so a real number. -/
theorem v12_real (x0 : (⟨S1x32x100000x1, .f32⟩ : BufTy).Contents (Elt Ideal)) (x1 : (⟨S2x1600000, .i32⟩ : BufTy).Contents (Elt Ideal))
    (h0 : ∀ i, ∃ r : ℝ, x0 i = (r : EReal)) (e : Fin 1600000) (c : Fin 32) :
    ∃ r : ℝ, Read.val_main_v12 (F := Ideal) x0 x1 (ix2 e c) = (r : EReal) := by
  unfold Read.val_main_v12
  have hg := Cert.Lib.gather_rows_apply (N := 100000) (E := 1600000) (C := 32) (by norm_num)
    gather_S100000x32_S1600000x1_S1600000x32_1_0_n_n_0_1_132_wf (Read.val_main_v1 (F := Ideal) x0) (Read.val_main_v11 (F := Ideal) x1) e c
  obtain ⟨r, hr⟩ := v1_real x0 h0 (ix2 (Cert.Lib.clampRow 100000 (by norm_num) (Read.val_main_v11 (F := Ideal) x1 (ix2 e 0))) c)
  exact ⟨r, hg.trans hr⟩

/-- Every entry of the gathered target rows is an entry of the node features, so a real number. -/
theorem v19_real (x0 : (⟨S1x32x100000x1, .f32⟩ : BufTy).Contents (Elt Ideal)) (x1 : (⟨S2x1600000, .i32⟩ : BufTy).Contents (Elt Ideal))
    (h0 : ∀ i, ∃ r : ℝ, x0 i = (r : EReal)) (e : Fin 1600000) (c : Fin 32) :
    ∃ r : ℝ, Read.val_main_v19 (F := Ideal) x0 x1 (ix2 e c) = (r : EReal) := by
  unfold Read.val_main_v19
  have hg := Cert.Lib.gather_rows_apply (N := 100000) (E := 1600000) (C := 32) (by norm_num)
    gather_S100000x32_S1600000x1_S1600000x32_1_0_n_n_0_1_132_wf (Read.val_main_v1 (F := Ideal) x0) (Read.val_main_v18 (F := Ideal) x1) e c
  obtain ⟨r, hr⟩ := v1_real x0 h0 (ix2 (Cert.Lib.clampRow 100000 (by norm_num) (Read.val_main_v18 (F := Ideal) x1 (ix2 e 0))) c)
  exact ⟨r, hg.trans hr⟩

/-- Every entry of the transposed weight is an entry of the weight, so a real number. -/
theorem v22_real (x2 : (⟨S32x64, .f32⟩ : BufTy).Contents (Elt Ideal))
    (h2 : ∀ i, ∃ r : ℝ, x2 i = (r : EReal)) (i : S64x32.Idx) :
    ∃ r : ℝ, Read.val_main_v22 (F := Ideal) x2 i = (r : EReal) := by
  rw [val_main_v22_apply]
  exact h2 _

/-- Every entry of an edge's feature vector is real when the gathered rows are: a copied entry, or a difference of two. -/
theorem feat_real (xs xt : SE.Idx → EReal)
    (hs : ∀ (e : Fin 1600000) (c : Fin 32), ∃ r : ℝ, xs (ix2 e c) = (r : EReal))
    (ht : ∀ (e : Fin 1600000) (c : Fin 32), ∃ r : ℝ, xt (ix2 e c) = (r : EReal))
    (e : Fin 1600000) (k : Fin 64) : ∃ r : ℝ, feat xs xt e k = (r : EReal) := by
  unfold feat
  by_cases h : k.val < 32
  · rw [dif_pos h]
    exact hs _ _
  · rw [dif_neg h]
    have hk : k.val - 32 < 32 := by have := k.isLt; omega
    obtain ⟨a, ha⟩ := ht e ⟨k.val - 32, hk⟩
    obtain ⟨b, hb⟩ := hs e ⟨k.val - 32, hk⟩
    exact ⟨a - b, by rw [ha, hb, EReal.coe_sub]⟩

/-- Every convolution is real when the gathered rows and the transposed weight are: a finite sum of products of reals. -/
theorem conv_real (xs xt : SE.Idx → EReal) (wt : SW.Idx → EReal)
    (hs : ∀ (e : Fin 1600000) (c : Fin 32), ∃ r : ℝ, xs (ix2 e c) = (r : EReal))
    (ht : ∀ (e : Fin 1600000) (c : Fin 32), ∃ r : ℝ, xt (ix2 e c) = (r : EReal))
    (hw : ∀ i, ∃ r : ℝ, wt i = (r : EReal))
    (e : Fin 1600000) (o : Fin 32) : ∃ r : ℝ, conv xs xt wt e o = (r : EReal) := by
  unfold conv
  choose f hf using fun k => feat_real xs xt hs ht e k
  choose w hw' using hw
  refine ⟨∑ k : Fin 64, f k * w (ix2 k o), ?_⟩
  rw [← sum_coe_real]
  refine Finset.sum_congr rfl fun k _ => ?_
  rw [hf, hw', EReal.coe_mul]

/-- On real inputs the activated entry (e, o) computed from the two moments is the one computed from the centred values. -/
theorem out_agree (x0 : (⟨S1x32x100000x1, .f32⟩ : BufTy).Contents (Elt Ideal)) (x1 : (⟨S2x1600000, .i32⟩ : BufTy).Contents (Elt Ideal))
    (x2 : (⟨S32x64, .f32⟩ : BufTy).Contents (Elt Ideal)) (x3 x4 : (⟨S32, .f32⟩ : BufTy).Contents (Elt Ideal))
    (h0 : ∀ i, ∃ r : ℝ, x0 i = (r : EReal)) (h2 : ∀ i, ∃ r : ℝ, x2 i = (r : EReal))
    (h3 : ∀ i, ∃ r : ℝ, x3 i = (r : EReal)) (h4 : ∀ i, ∃ r : ℝ, x4 i = (r : EReal)) (e : Fin 1600000) (o : Fin 32) :
    Cert.EdgeConv.outMoments (Read.val_main_v12 (F := Ideal) x0 x1) (Read.val_main_v19 (F := Ideal) x0 x1) (Read.val_main_v22 (F := Ideal) x2) x3 x4 e o
      = Cert.EdgeConv.outCentred (Read.val_main_v12 (F := Ideal) x0 x1) (Read.val_main_v19 (F := Ideal) x0 x1) (Read.val_main_v22 (F := Ideal) x2) x3 x4 e o := by
  unfold outMoments outCentred
  refine congrArg elu ?_
  obtain ⟨r, hr, he⟩ := ofBits_eps
  show viaMoments _ _ _ (Ideal.ofBits .f32 0x49C35000#32) (Ideal.ofBits .f32 0x3727C5AC#32) e
    = viaCentred _ _ _ (Ideal.ofBits .f32 0x49C35000#32) (Ideal.ofBits .f32 0x3727C5AC#32) e
  rw [ofBits_count, he]
  exact viaMoments_eq_viaCentred _
    (fun e' => conv_real _ _ _ (v12_real x0 x1 h0) (v19_real x0 x1 h0) (v22_real x2 h2) e' o)
    _ _ (h3 _) (h4 _) 1600000 r (by simp) (by norm_num) hr e

end Cert.ReferenceIdeal.SpecAgree

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.FiniteInputs.lean ====
/-
  Finite inputs: the printed precondition "every float input is finite", read at the ideal instance.

  The precondition is a conjunction of four tests, one per float input: the and-reduction over all axes of the
  entrywise comparison |x| < +∞. A conjunction of one-bit words is 1 exactly when each word is 1, so the asserted
  value 1 splits into the four tests, and each test says that every entry of its input is a real number.
-/
import proofs.«136547_j57251914056097_1_alg».proof.Pre_finite_inputs
import proofs.«136547_j57251914056097_1_alg».proof.Proof.LibFiniteEntries

noncomputable section

open Idealize.ShloMosaic Idealize.ShloMosaic.ValueIdx

namespace Cert.FiniteInputs

open Cert.Pre_finite_inputs

variable [Cert.Pre_finite_inputs.Facts]

/-- If the precondition holds (its one-bit result is 1), every entry of each of the four float inputs is a real number. -/
theorem reals_of_pre (x0 : FVec Ideal S1x32x100000x1 .f32) (x1 : IVec S2x1600000 32) (x2 : FVec Ideal S32x64 .f32)
    (x3 x4 : FVec Ideal S32 .f32)
    (h : Cert.Pre_finite_inputs.fn (F := Ideal) x0 x1 x2 x3 x4 = fun _ => 1#1) :
    (∀ i, ∃ r : ℝ, x0 i = (r : EReal)) ∧ (∀ i, ∃ r : ℝ, x2 i = (r : EReal))
      ∧ (∀ i, ∃ r : ℝ, x3 i = (r : EReal)) ∧ (∀ i, ∃ r : ℝ, x4 i = (r : EReal)) := by
  -- the result at its one index: ((t0 ∧ t2) ∧ t3) ∧ t4 = 1
  have h0 := congrFun h ValueIdx.ix0
  dsimp only [fn, fn_part1, andi] at h0
  obtain ⟨h012, h4⟩ := IntOp.andi_eq_one.1 h0
  obtain ⟨h01, h3⟩ := IntOp.andi_eq_one.1 h012
  obtain ⟨hx0, hx2⟩ := IntOp.andi_eq_one.1 h01
  exact ⟨Cert.Lib.real_of_all_finite x0 _ _ _ hx0, Cert.Lib.real_of_all_finite x2 _ _ _ hx2,
    Cert.Lib.real_of_all_finite x3 _ _ _ h3, Cert.Lib.real_of_all_finite x4 _ _ _ h4⟩

end Cert.FiniteInputs

end
-- ==== Proof.Bridge.lean ====
/-
  The two programs' results are one array.

  The kernel program's result is the shared scatter tail applied to the source index words and to the second
  pallas_call's output array; the reference's result is the same tail applied to the same words and to its own
  activated array. So it is enough that the two activated arrays agree entry by entry. At entry (e, o) the kernel's is
  ELU(y(e, o) · scale(o) + shift(o)), where y is the first pallas_call's product array — the convolution of every edge —,
  and scale and shift are formed on the host from that call's two accumulators, which hold each channel's sum and sum
  of squares of y over all the edges: the batch-norm of y(e, o) computed from the two moments. The reference's entry
  is ELU of the batch-norm computed from the centred values. The two agree where every float input is a real
  number, which is what the precondition says.
-/
import proofs.«136547_j57251914056097_1_alg».proof.Proof.StatsValue
import proofs.«136547_j57251914056097_1_alg».proof.Proof.StatsAcc
import proofs.«136547_j57251914056097_1_alg».proof.Proof.NormValue
import proofs.«136547_j57251914056097_1_alg».proof.Proof.Moments
import proofs.«136547_j57251914056097_1_alg».proof.Proof.Glue
import proofs.«136547_j57251914056097_1_alg».proof.Proof.RefValue
import proofs.«136547_j57251914056097_1_alg».proof.Proof.SpecAgree
import proofs.«136547_j57251914056097_1_alg».proof.Proof.FiniteInputs
import proofs.«136547_j57251914056097_1_alg».proof.Proof.Gen.Pre_finite_inputs

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem
open Cert.EdgeConv Cert.EdgeNorm

variable (m : (ℓ : Loc nD τ sig) → Buf (Elt Ideal) ℓ) (ρ : Dev nD → PrngReg)

/-- The gathered source rows, as the reference's stage names them. -/
abbrev xs (c : Dev nD) : SE.Idx → EReal :=
  Cert.ReferenceIdeal.Read.val_main_v12 (F := Ideal) (m ((c : Thread nD τ).loc main_arg0)) (m ((c : Thread nD τ).loc main_arg1))
/-- The gathered target rows. -/
abbrev xt (c : Dev nD) : SE.Idx → EReal :=
  Cert.ReferenceIdeal.Read.val_main_v19 (F := Ideal) (m ((c : Thread nD τ).loc main_arg0)) (m ((c : Thread nD τ).loc main_arg1))
/-- The transposed weight. -/
abbrev wt (c : Dev nD) : SW.Idx → EReal :=
  Cert.ReferenceIdeal.Read.val_main_v22 (F := Ideal) (m ((c : Thread nD τ).loc main_arg2))

/-- The gain and the shift, as functions on the 32 channels. -/
abbrev gain (c : Dev nD) : SC.Idx → EReal := m ((c : Thread nD τ).loc main_arg3)
abbrev bias (c : Dev nD) : SC.Idx → EReal := m ((c : Thread nD τ).loc main_arg4)

/-- The convolution of every edge, as region 0 computes it from what it finds, is the convolution of the
    reference's gathered rows and transposed weight. -/
theorem conv_entry (c : Dev nD) (e : Fin 1600000) (o : Fin 32) :
    conv (V1 m ρ c main_v12) (V1 m ρ c main_v19) (V1 m ρ c main_v20) e o = conv (xs m c) (xt m c) (wt m c) e o := by
  show conv (W1 m ρ c (Proc.devRef .tc main_v12)) (W1 m ρ c (Proc.devRef .tc main_v19)) (W1 m ρ c (Proc.devRef .tc main_v20)) e o = _
  rw [Glue.entry_v12 m ρ c, Glue.entry_v19 m ρ c, Glue.entry_v20 m ρ c]

/-- What the second pallas_call finds in its first input: the convolution of every edge. -/
theorem y_entry (c : Dev nD) (e : Fin 1600000) (o : Fin 32) :
    (W3 m ρ c (Proc.devRef .tc main_v21_0) : S1600000x32.Idx → EReal) (ix2 e o) = conv (xs m c) (xt m c) (wt m c) e o := by
  have h3 : W2 m ρ c (Proc.devRef .tc main_v21_0) = (dat0 (V1 m ρ) c).arrAt 3 cfg0.N := W2_arr m ρ c 3
  rw [Glue.W3_v21_0 m ρ c, h3, Stats.final3 (V1 m ρ) c, Stats.prodArr_apply]
  exact conv_entry m ρ c e o

/-- Every point's product block is a band of the product array. -/
theorem bands (c : Dev nD) (n : ℕ) (h : n < cfg0.N) (r : Fin 16000) (o : Fin 32) (hb : 16000 * n + r.val < 1600000) :
    Stats.prodAt (V1 m ρ) c n h (ix2 r o)
      = Stats.prodArr (V1 m ρ c main_v12) (V1 m ρ c main_v19) (V1 m ρ c main_v20) (ix2 (⟨16000 * n + r.val, hb⟩ : Fin 1600000) o) :=
  Stats.prodAt_apply (V1 m ρ) c n h r o hb

/-- What the second pallas_call finds in its first input, at the name its value lemma uses. -/
theorem y_in (c : Dev nD) (e : Fin 1600000) (o : Fin 32) :
    Norm.yIn (V3 m ρ) c (ix2 e o) = conv (xs m c) (xt m c) (wt m c) e o := y_entry m ρ c e o

/-- The first accumulator after the first pallas_call: each channel's sum of the convolution over all edges. -/
theorem sum_entry (c : Dev nD) (o : Fin 32) :
    Moments.sumIn m ρ c (ix2 (0 : Fin 1) o) = ∑ e : Fin 1600000, conv (xs m c) (xt m c) (wt m c) e o := by
  have key : (Ideal.ofBits .f32 0x00000000#32
        + ∑ e : Fin 1600000, Stats.prodArr (V1 m ρ c main_v12) (V1 m ρ c main_v19) (V1 m ρ c main_v20) (ix2 e o) : EReal)
      = ∑ e : Fin 1600000, conv (xs m c) (xt m c) (wt m c) e o := by
    rw [Ideal.ofBits_zero_f32, zero_add]
    exact Finset.sum_congr rfl fun e _ => (Stats.prodArr_apply _ _ _ e o).trans (conv_entry m ρ c e o)
  have h4 : W2 m ρ c (Proc.devRef .tc main_v21_1) = (dat0 (V1 m ρ) c).arrAt 4 cfg0.N := W2_arr m ρ c 4
  show (W2 m ρ c (Proc.devRef .tc main_v21_1) : S1x32.Idx → EReal) (ix2 (0 : Fin 1) o) = _
  rw [h4]
  exact (Stats.final_sum (V1 m ρ) c _ (bands m ρ c) o).trans key

/-- The second accumulator: each channel's sum of squares. -/
theorem sq_entry (c : Dev nD) (o : Fin 32) :
    Moments.sqIn m ρ c (ix2 (0 : Fin 1) o)
      = ∑ e : Fin 1600000, conv (xs m c) (xt m c) (wt m c) e o * conv (xs m c) (xt m c) (wt m c) e o := by
  have key : (Ideal.ofBits .f32 0x00000000#32
        + ∑ e : Fin 1600000, Stats.prodArr (V1 m ρ c main_v12) (V1 m ρ c main_v19) (V1 m ρ c main_v20) (ix2 e o)
            * Stats.prodArr (V1 m ρ c main_v12) (V1 m ρ c main_v19) (V1 m ρ c main_v20) (ix2 e o) : EReal)
      = ∑ e : Fin 1600000, conv (xs m c) (xt m c) (wt m c) e o * conv (xs m c) (xt m c) (wt m c) e o := by
    rw [Ideal.ofBits_zero_f32, zero_add]
    refine Finset.sum_congr rfl fun e _ => ?_
    rw [Stats.prodArr_apply, conv_entry m ρ c e o]
  have h5 : W2 m ρ c (Proc.devRef .tc main_v21_2) = (dat0 (V1 m ρ) c).arrAt 5 cfg0.N := W2_arr m ρ c 5
  show (W2 m ρ c (Proc.devRef .tc main_v21_2) : S1x32.Idx → EReal) (ix2 (0 : Fin 1) o) = _
  rw [h5]
  exact (Stats.final_sq (V1 m ρ) c _ (bands m ρ c) o).trans key

/-- The gain and the shift the host reads between the two pallas_calls are the arguments. -/
theorem gain_entry (c : Dev nD) : Moments.gainIn m ρ c = gain m c := Glue.W2_arg3 m ρ c
theorem bias_entry (c : Dev nD) : Moments.biasIn m ρ c = bias m c := Glue.W2_arg4 m ρ c

/-- The scale row the second pallas_call finds: gain · rsqrt(variance from the two moments + eps). -/
theorem scale_in (c : Dev nD) (o : Fin 32) :
    Norm.scaleIn (V3 m ρ) c (ix2 (0 : Fin 1) o)
      = gain m c (ix1 o) * Ideal.rsqrt
          ((Ideal.div (∑ e : Fin 1600000, conv (xs m c) (xt m c) (wt m c) e o * conv (xs m c) (xt m c) (wt m c) e o) count
            - Ideal.div (∑ e : Fin 1600000, conv (xs m c) (xt m c) (wt m c) e o) count
              * Ideal.div (∑ e : Fin 1600000, conv (xs m c) (xt m c) (wt m c) e o) count) + eps) := by
  refine (Moments.scale_apply m ρ c o).trans ?_
  rw [sum_entry m ρ c o, sq_entry m ρ c o, gain_entry m ρ c]

/-- The shift row: bias − mean · scale. -/
theorem shift_in (c : Dev nD) (o : Fin 32) :
    Norm.shiftIn (V3 m ρ) c (ix2 (0 : Fin 1) o)
      = bias m c (ix1 o)
        - Ideal.div (∑ e : Fin 1600000, conv (xs m c) (xt m c) (wt m c) e o) count
          * (gain m c (ix1 o) * Ideal.rsqrt
          ((Ideal.div (∑ e : Fin 1600000, conv (xs m c) (xt m c) (wt m c) e o * conv (xs m c) (xt m c) (wt m c) e o) count
            - Ideal.div (∑ e : Fin 1600000, conv (xs m c) (xt m c) (wt m c) e o) count
              * Ideal.div (∑ e : Fin 1600000, conv (xs m c) (xt m c) (wt m c) e o) count) + eps)) := by
  refine (Moments.shift_apply m ρ c o).trans ?_
  rw [sum_entry m ρ c o, sq_entry m ρ c o, gain_entry m ρ c, bias_entry m ρ c]

/-- The second pallas_call's output at (e, o): ELU of the batch-norm, from the two moments, of the convolution. -/
theorem out_entry (c : Dev nD) (e : Fin 1600000) (o : Fin 32) :
    (W4 m ρ c (Proc.devRef .tc main_v39) : S1600000x32.Idx → EReal) (ix2 e o)
      = outMoments (xs m c) (xt m c) (wt m c) (gain m c) (bias m c) e o := by
  have h39 : W4 m ρ c (Proc.devRef .tc main_v39) = (dat1 (V3 m ρ) c).arrAt 3 cfg1.N := W4_arr m ρ c 3
  rw [h39, Norm.final (V3 m ρ) c e o, y_in m ρ c e o, scale_in m ρ c o, shift_in m ρ c o]
  rfl

/-- The kernel program's result is the reference's last stage of the same arguments. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    W5 m ρ c (Proc.devRef .tc main_v49)
      = Cert.ReferenceIdeal.Read.val_main_v62 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨h0, h2, h3, h4⟩ := Cert.FiniteInputs.reals_of_pre _ _ _ _ _ hpre
  refine (Glue.kernel_tail m ρ c).trans ?_
  rw [Glue.ref_tail, Glue.W4_v3 m ρ c, Glue.entry_v3 m ρ c]
  refine congrArg (Glue.tail _) ?_
  funext i
  obtain ⟨e, o, rfl⟩ : ∃ (e : Fin 1600000) (o : Fin 32), i = ix2 e o := ⟨i 0, i 1, eq_ix2 i⟩
  refine (out_entry m ρ c e o).trans ?_
  refine (Cert.ReferenceIdeal.SpecAgree.out_agree _ _ _ _ _ h0 h2 h3 h4 e o).trans ?_
  exact (Cert.ReferenceIdeal.RefValue.val_main_v52_at _ _ _ _ _ e o).symm

end Cert.KernelIdeal.Bridge

end
-- ==== Proof.lean ====
/-
  The certificate of the edge-convolution kernel against its reference.

  Both programs gather, for each of 1,600,000 edges, the feature rows of the edge's two end nodes, form the 64 numbers
  [x_s, x_t − x_s], multiply by the transposed weight, batch-normalise each of the 32 output channels over all the
  edges, apply ELU, and add every edge's row into the row of its source node. They differ in two places only. The
  kernel computes the convolution block by block in a first pallas_call that also accumulates, over its 100 grid
  points, each channel's sum and sum of squares; the host then forms mean, variance = (sum of squares)/n − mean²,
  scale = gain · rsqrt(variance + eps) and shift = bias − mean · scale, and a second pallas_call computes
  ELU(y · scale + shift). The reference computes the variance from the centred values and
  ((y − mean) · rsqrt(variance + eps)) · gain + bias. Over the extended reals the two agree when every float input
  is a real number, which the precondition states: then every convolution value is a real number, the two variances
  are the same nonnegative real, variance + eps is positive, and the two affine forms are one real number.

  The three frames: the two kernel programs' frames are the generated ones; the reference's frame is its generated run
  with the result forgotten. The idealization rewrote nothing. For the value claim the kernel's run is stated with
  its result named (KernelRun), the result is read back through the five stretches of the program (StatsValue, StatsAcc,
  Moments, NormValue, Glue), the reference's result one operation at a time (RefValue), and Bridge joins them.
-/
import proofs.«136547_j57251914056097_1_alg».proof.Defs
import proofs.«136547_j57251914056097_1_alg».proof.Proof.Gen.Kernel
import proofs.«136547_j57251914056097_1_alg».proof.Proof.Gen.Kernel.Skeleton
import proofs.«136547_j57251914056097_1_alg».proof.Proof.Gen.Kernel.Launch
import proofs.«136547_j57251914056097_1_alg».proof.Proof.Gen.Kernel.Points
import proofs.«136547_j57251914056097_1_alg».proof.Proof.Gen.Kernel.Frame
import proofs.«136547_j57251914056097_1_alg».proof.Proof.Gen.KernelIdeal
import proofs.«136547_j57251914056097_1_alg».proof.Proof.Gen.KernelIdeal.Skeleton
import proofs.«136547_j57251914056097_1_alg».proof.Proof.Gen.KernelIdeal.Launch
import proofs.«136547_j57251914056097_1_alg».proof.Proof.Gen.KernelIdeal.Points
import proofs.«136547_j57251914056097_1_alg».proof.Proof.Gen.KernelIdeal.Frame
import proofs.«136547_j57251914056097_1_alg».proof.Proof.Gen.ReferenceIdeal
import proofs.«136547_j57251914056097_1_alg».proof.Proof.Gen.Pre_finite_inputs
import proofs.«136547_j57251914056097_1_alg».proof.Proof.Gen.ReferenceIdeal.Run
import proofs.«136547_j57251914056097_1_alg».proof.Proof.Gen.ReferenceIdeal.Read
import proofs.«136547_j57251914056097_1_alg».proof.Proof.KernelRun
import proofs.«136547_j57251914056097_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the five arguments, the idealized kernel ends with its result buffer at the last
    boundary's contents and the idealized reference with its result at its last operation's value; under the
    precondition these are one array of extended reals. -/
theorem algebraic : Cert.algebraic_KernelIdeal_ReferenceIdeal := by
  intro m ρ m' ρ' hpre hagree
  refine ⟨fun c => Cert.KernelIdeal.Gen.W5 m ρ c (Proc.devRef .tc Cert.KernelIdeal.main_v49), Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq m' c, (hagree c).1, (hagree c).2.1, (hagree c).2.2.1, (hagree c).2.2.2.1,
    (hagree c).2.2.2.2]
  exact (Cert.KernelIdeal.Bridge.result_eq m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
